-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1024x256 .f32 .bf16
  ∧ IdealRules.truncf_extf.Statement Cert.KernelIdeal.S256x256 .f32 .bf16
  ∧ IdealRules.truncf_extf.Statement Cert.KernelIdeal.S1024x256 .f32 .bf16
  ∧ IdealRules.truncf_extf.Statement Cert.KernelIdeal.S2048x256 .f32 .bf16
  ∧ IdealRules.truncf_extf.Statement Cert.KernelIdeal.S1024x2048 .f32 .bf16
  ∧ IdealRules.truncf_extf.Statement Cert.KernelIdeal.S2048x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4x4096x256 .f32) (main_arg1 : FVec F S256x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S4x4096x256 : Shape := ⟨3, ![4, 4096, 256]⟩
abbrev S256x256 : Shape := ⟨2, ![256, 256]⟩
abbrev S1x1024x256 : Shape := ⟨3, ![1, 1024, 256]⟩
abbrev S1x2048x256 : Shape := ⟨3, ![1, 2048, 256]⟩
abbrev S1024x256 : Shape := ⟨2, ![1024, 256]⟩
abbrev S2048x256 : Shape := ⟨2, ![2048, 256]⟩
abbrev S1024x2048 : Shape := ⟨2, ![1024, 2048]⟩

abbrev nBuf : Space → Nat
  | .hbm => 3
  | .vmem => 9
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S4x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S1x2048x256, .f32⟩
  | .local _ .vmem, ⟨3, _⟩ => ⟨S1x2048x256, .f32⟩
  | .local _ .vmem, ⟨4, _⟩ => ⟨S256x256, .f32⟩
  | .local _ .vmem, ⟨5, _⟩ => ⟨S1x1024x256, .f32⟩
  | .local _ .vmem, ⟨6, _⟩ => ⟨S1x1024x256, .f32⟩
  | .local _ .vmem, ⟨7, _⟩ => ⟨S1024x256, .f32⟩
  | .local _ .vmem, ⟨8, _⟩ => ⟨S1024x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v38 : BitVec 1 := Scalar.cmpi .eq arg2 c1_i32
  let v39 : BitVec 32 := Scalar.extui v38
  let c0_i32_14 : BitVec 32 := 0#32
  let v40 : BitVec 1 := Scalar.cmpi .ne v39 c0_i32_14
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S1024x256_S1x1024x256 : S1024x256.ShapeCasts S1x1024x256
  dot_S1024x256_S256x256_S1024x256_1_0_0_1_n_n_wf : DotDims.WF S1024x256 S256x256 S1024x256 [1] [0] [0] [1] [] []
  dot_S1024x256_S2048x256_S1024x2048_1_1_0_0_n_n_wf : DotDims.WF S1024x256 S2048x256 S1024x2048 [1] [1] [0] [0] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .f32 = 32 ∨ (Rect.block (s := S4x4096x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S4x4096x256.size a
  hwx0_1 : ∀ i : grid0.Coords, EltTy.bits .f32 = 32 ∨ (Rect.block (s := S4x4096x256) S1x2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S4x4096x256.size a
  hwx0_3 : ∀ i : grid0.Coords, EltTy.bits .f32 = 32 ∨ (Rect.block (s := S4x4096x256) S1x1024x256.size (cc0_transform_3 i) (hinb0_3 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S256x256 : Shape := ⟨2, ![256, 256]⟩
abbrev S4x4096x4096 : Shape := ⟨3, ![4, 4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S4x4096x256, .f32⟩
  | .hbm, ⟨3, _⟩ => ⟨S4x4096x4096, .f32⟩
  | .hbm, ⟨4, _⟩ => ⟨S4x4096x4096, .f32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x256_S256x256_S4x4096x256_2_0_01_1_n_n_wf : DotDims.WF S4x4096x256 S256x256 S4x4096x256 [2] [0] [0, 1] [1] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_0_01_1_n_n : DotDims S4x4096x256 S256x256 S4x4096x256 where
  lhsContracting := [2]
  rhsContracting := [0]
  lhsNonContracting := [0, 1]
  rhsNonContracting := [1]
  lhsBatch := []
  rhsBatch := []
  wf := dot_S4x4096x256_S256x256_S4x4096x256_2_0_01_1_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.FrameData.lean ====
/-
  The pipeline's proof data for the attention kernel: grid 4 × 4 × 2 (batch, query tile of 1024 rows, key tile of
  2048 rows), 32 points in row-major order, so a point's parity is its key-tile coordinate. At an even point the
  body writes the projected query tile q = x_q · W into the first scratch buffer and starts the accumulator in the
  second one from zero; at every point it adds sigmoid(q · x_kᵀ) · x_k to the accumulator; at an odd point it copies
  the accumulator to the output block, which is then written back. So everything a pair of points (2k, 2k+1) leaves
  is a function of the blocks the two points read, and nothing is carried from one pair to the next.

  The input array is read through TWO windows (the query tile and the key tile). Both only read it, so its full
  share is dealt in halves, one to each window.
-/
import proofs.«171016_j54803782697259_2_alg».proof.Proof.Gen.KernelIdeal.Launch
import proofs.«171016_j54803782697259_2_alg».proof.Proof.Gen.KernelIdeal.Skeleton
import proofs.«171016_j54803782697259_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- A core's buffer contents when the region is entered: the launch contents (no host operation precedes it). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two cases, decided over the grid -/

/-- The key-tile coordinate is 0: the point starts a pair. -/
abbrev condFirst (i : grid0.Coords) : Prop :=
  (Scalar.cmpi .ne (Scalar.extui (Scalar.cmpi .eq (BitVec.ofNat 32 (i 2).val) 0#32)) 0#32) = 1#1
/-- The key-tile coordinate is 1: the point ends a pair. -/
abbrev condLast (i : grid0.Coords) : Prop := k0_cond2 i = 1#1

theorem hcondFirst : ∀ t : Fin cfg0.N, condFirst (grid0.coords t) ↔ t.val % 2 = 0 :=
  (by decide +kernel : ∀ t : Fin grid0.N, condFirst (grid0.coords t) ↔ t.val % 2 = 0)
theorem hcondLast : ∀ t : Fin cfg0.N, condLast (grid0.coords t) ↔ t.val % 2 = 1 :=
  (by decide +kernel : ∀ t : Fin grid0.N, condLast (grid0.coords t) ↔ t.val % 2 = 1)

/-- The output window is idle at the even points (the body stores nothing into it there) and is not written back there; -/
theorem idleOut_even : ∀ t : Fin cfg0.N, t.val % 2 = 0 → cfg0.idle 3 (grid0.coords t) = true :=
  (by decide +kernel : ∀ t : Fin grid0.N, t.val % 2 = 0 → idle0 3 (grid0.coords t) = true)
theorem noFlushOut_even : ∀ t : Fin cfg0.N, t.val % 2 = 0 → (cfg0.win 3).flush t = false :=
  (by decide +kernel : ∀ t : Fin grid0.N, t.val % 2 = 0 → win0_3.flush t = false)
/-- it is live at the odd ones, and written back there. -/
theorem liveOut_odd : ∀ t : Fin cfg0.N, t.val % 2 = 1 → cfg0.idle 3 (grid0.coords t) = false :=
  (by decide +kernel : ∀ t : Fin grid0.N, t.val % 2 = 1 → idle0 3 (grid0.coords t) = false)

/-! ## What a pair of points computes -/

/-- The even point of the pair `t` belongs to. -/
def pairStart (t : Fin cfg0.N) : Fin cfg0.N := ⟨t.val - t.val % 2, Nat.lt_of_le_of_lt (Nat.sub_le _ _) t.isLt⟩

theorem pairStart_even (t : Fin cfg0.N) (h : t.val % 2 = 0) : pairStart t = t := Fin.ext (by simp [pairStart, h])
theorem pairStart_val_odd (t : Fin cfg0.N) (h : t.val % 2 = 1) : (pairStart t).val = t.val - 1 := by simp [pairStart, h]

/-- The projected query tile of `t`'s pair: the first scratch buffer's contents after either point of the pair. -/
def qAt (c : Dev nD) (t : Fin cfg0.N) : Vec F S1024x256 .f32 :=
  k0_pay2 (iblk m c 0 (pairStart t)) (iblk m c 2 (pairStart t))

/-- The accumulator after the pair's first point: the first key tile's term added to zero. -/
def accFirst (c : Dev nD) (t : Fin cfg0.N) : Vec F S1024x256 .f32 :=
  k0_pay4 (iblk m c 1 (pairStart t)) (qAt m c t) (k0_pay3 (F := F))

/-- The accumulator after point `t`: after an even point the first key tile's term, after an odd one both. -/
def accAt (c : Dev nD) (t : Fin cfg0.N) : Vec F S1024x256 .f32 :=
  if t.val % 2 = 0 then accFirst m c t else k0_pay4 (iblk m c 1 t) (qAt m c t) (accFirst m c t)

/-- What an odd point stores into the output block: the accumulator, as a [1, 1024, 256] array. -/
def outAt (c : Dev nD) (t : Fin cfg0.N) : Vec F S1x1024x256 .f32 := k0_pay1 (accAt m c t)

/-! ## The carried contents by the point's parity -/

/-- An odd point and the even point before it belong to one pair. -/
theorem pairStart_pred (t : Fin cfg0.N) (h : t.val % 2 = 1) :
    pairStart t = pairStart ⟨t.val - 1, Nat.lt_of_le_of_lt (Nat.sub_le _ _) t.isLt⟩ :=
  Fin.ext (by simp only [pairStart]; omega)

/-- At an even point the projected query tile is computed from that point's own blocks, -/
theorem qAt_even (c : Dev nD) (t : Fin cfg0.N) (h : t.val % 2 = 0) :
    qAt m c t = k0_pay2 (iblk m c 0 t) (iblk m c 2 t) := by
  unfold qAt; rw [pairStart_even t h]

/-- and the accumulator is the first key tile's term over zero. -/
theorem accAt_even (c : Dev nD) (t : Fin cfg0.N) (h : t.val % 2 = 0) :
    accAt m c t = k0_pay4 (iblk m c 1 t) (k0_pay2 (iblk m c 0 t) (iblk m c 2 t)) (k0_pay3 (F := F)) := by
  unfold accAt accFirst qAt; rw [if_pos h, pairStart_even t h]

/-- At an odd point the projected query tile is the one the point before left, -/
theorem qAt_odd (c : Dev nD) (t : Fin cfg0.N) (h : t.val % 2 = 1) :
    qAt m c t = qAt m c ⟨t.val - 1, Nat.lt_of_le_of_lt (Nat.sub_le _ _) t.isLt⟩ := by
  unfold qAt; rw [pairStart_pred t h]

/-- and the accumulator is the second key tile's term added to what the point before left. -/
theorem accAt_odd (c : Dev nD) (t : Fin cfg0.N) (h : t.val % 2 = 1) :
    accAt m c t = k0_pay4 (iblk m c 1 t) (qAt m c ⟨t.val - 1, Nat.lt_of_le_of_lt (Nat.sub_le _ _) t.isLt⟩)
      (accAt m c ⟨t.val - 1, Nat.lt_of_le_of_lt (Nat.sub_le _ _) t.isLt⟩) := by
  have hp : (⟨t.val - 1, Nat.lt_of_le_of_lt (Nat.sub_le _ _) t.isLt⟩ : Fin cfg0.N).val % 2 = 0 := by
    show (t.val - 1) % 2 = 0; omega
  have hn : ¬ t.val % 2 = 0 := by omega
  unfold accAt accFirst qAt
  rw [if_neg hn, if_pos hp, pairStart_pred t h]

/-! ## The invariant between points -/

abbrev scQ : Memref sig .tc .vmem S1024x256 .f32 := Memref.whole cc0_scratch0
abbrev scAcc : Memref sig .tc .vmem S1024x256 .f32 := Memref.whole cc0_scratch1

/-- The core's scoped buffers that are no staging buffer are the two scratch buffers. Before the first point they hold
    anything; after point `n` the first holds the pair's projected query tile and the second the accumulator. -/
def PhiS (c : Dev nD) : (n : ℕ) → n ≤ cfg0.N → sProp 𝕄
  | 0, _ => Pipeline.scopedRest spec0 c
  | n + 1, hn => iprop(owns (c : Thread nD τ) scQ fullShare (qAt m c ⟨n, hn⟩)
      ∗ owns (c : Thread nD τ) scAcc fullShare (accAt m c ⟨n, hn⟩))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scQ fullShare (qAt m c ⟨n, hn⟩)
      ∗ owns (c : Thread nD τ) scAcc fullShare (accAt m c ⟨n, hn⟩)) := rfl

theorem PhiS_pos (c : Dev nD) (n : ℕ) (h : n ≤ cfg0.N) (hz : n ≠ 0) :
    PhiS m c n h = iprop(owns (c : Thread nD τ) scQ fullShare (qAt m c ⟨n - 1, by omega⟩)
      ∗ owns (c : Thread nD τ) scAcc fullShare (accAt m c ⟨n - 1, by omega⟩)) := by
  cases n with
  | zero => exact absurd rfl hz
  | succ n => rfl

/-- The scoped rest with the two scratch buffers as memrefs owned at some contents. -/
theorem scopedRest_scratch (c : Dev nD) :
    (Pipeline.scopedRest spec0 c : sProp 𝕄)
      = iprop((∃ d, owns (c : Thread nD τ) scQ fullShare d) ∗ (∃ d, owns (c : Thread nD τ) scAcc fullShare d)) := by
  rw [scopedRest0_eq]; simp only [scQ, scAcc, owns_whole]; try rfl

/-! ## The proof data -/

/-- The arrays as the region finds them; after the body each input's buffer at its block, the output's at `outAt`
    (consulted at the odd points only); the invariant `PhiS`; the input array's share dealt in halves to its two
    windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

end Cert.KernelIdeal.Run

end
-- ==== Proof.BodyRuns.lean ====
/- The two runs of the attention body, one for each case the grid meets.

   The body keeps two scratch blocks between grid points: the projected queries (x_q · W, computed once per query
   tile) and the accumulator (the running sum over key tiles of sigmoid(q · x_kᵀ) · x_k). At a point whose reduction
   coordinate is 0 it computes the queries and clears the accumulator before adding the point's term; at a point
   whose reduction coordinate is the last it adds the point's term and then copies the accumulator to the output
   block. Every load and store moves a whole block, so each buffer ends holding exactly the last value stored in it.

   Both triples are stated for an arbitrary float interpretation, over the four named pure values of the body
   (the output copy, the query projection, the zero block, the accumulator update), which are never opened here. -/
import proofs.«171016_j54803782697259_2_alg».proof.Proof.Gen.KernelIdeal.Launch
import proofs.«171016_j54803782697259_2_alg».proof.Proof.Gen.KernelIdeal.Skeleton
import proofs.«171016_j54803782697259_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first conditional of the body: the reduction coordinate is 0. -/
abbrev condFirst (i : grid0.Coords) : Prop := (Scalar.cmpi .ne (Scalar.extui (Scalar.cmpi .eq (BitVec.ofNat 32 (i 2).val) 0#32)) 0#32) = 1#1
/-- The second conditional of the body: the reduction coordinate is the last one. -/
abbrev condLast (i : grid0.Coords) : Prop := k0_cond2 i = 1#1

/-! ## Whole-block rectangles

Each rectangle the body loads or stores through is the whole block at zero offsets; the zeros are spelt as explicit
vectors, one per shape. -/

/-- The zero offsets of a rank-2 whole-buffer rectangle, as the constant function. -/
theorem hz2 : (![0, 0] : Fin S1024x256.rank → ℕ) = fun _ => 0 := by funext a; fin_cases a <;> rfl
/-- The same for the square weight buffer. -/
theorem hz2w : (![0, 0] : Fin S256x256.rank → ℕ) = fun _ => 0 := by funext a; fin_cases a <;> rfl
/-- The zero offsets of a rank-3 whole-buffer rectangle (query block / output block). -/
theorem hz3q : (![0, 0, 0] : Fin S1x1024x256.rank → ℕ) = fun _ => 0 := by funext a; fin_cases a <;> rfl
/-- The zero offsets of a rank-3 whole-buffer rectangle (key block). -/
theorem hz3k : (![0, 0, 0] : Fin S1x2048x256.rank → ℕ) = fun _ => 0 := by funext a; fin_cases a <;> rfl

/-! ## Reading a block back

What a whole-block store leaves, and what a whole-block load reads. -/

section WholeBuffer

variable {sg : RefSig} {κ : Kind} {sp : Space} {S : Shape} {e : EltTy}

/-- After a store through the whole-shape rectangle at zero offsets, made last, the buffer reads the stored value,
    whatever the earlier stores and the prior contents were. -/
theorem read_writes_whole (v : View sg κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A load of the whole buffer after one whole-buffer store reads the stored value. -/
theorem readCov_whole (v : View sg κ sp S e) {off : Fin S.rank → ℕ} (h : off = fun _ => 0)
    (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v h inb w

/-- A load of the whole of a whole memref whose contents read `X` reads `X`. -/
theorem readAt_whole {m : Memref sg κ sp S e} (hm : m.IsWhole) {off : Fin S.rank → ℕ} (h : off = fun _ => 0)
    (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

end WholeBuffer

/-! ## The two cases -/

set_option maxHeartbeats 1000000 in
/-- FIRST CASE (reduction coordinate 0). From the query block `x0`, the key block `x1`, the weights `x2`, an output
    block holding `xo` and the two scratch blocks holding anything, the body runs to the continuation with the inputs
    and the output block unchanged, the query scratch holding the projection of `x0` by `x2`, and the accumulator
    holding the update of the zero block by the term of `x1` under those queries. -/
theorem run_first (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S256x256 .f32) (harg5 : arg5.IsWhole) (arg6 : Memref sig .tc .vmem S1x1024x256 .f32) (harg6 : arg6.IsWhole) (arg7 : Memref sig .tc .vmem S1024x256 .f32) (harg7 : arg7.IsWhole) (arg8 : Memref sig .tc .vmem S1024x256 .f32) (harg8 : arg8.IsWhole)
    (hc0 : condFirst i) (hc1 : ¬condLast i) (x0 : Vec F S1x1024x256 .f32) (x1 : Vec F S1x2048x256 .f32) (x2 : Vec F S256x256 .f32) (xo : Vec F S1x1024x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo
          ∗ (∃ d, owns (c : Thread nD τ) arg7 fullShare d) ∗ (∃ d, owns (c : Thread nD τ) arg8 fullShare d)
          ∗ (iprop(owns (c : Thread nD τ) arg3 fullShare x0 ∗ owns (c : Thread nD τ) arg4 fullShare x1 ∗ owns (c : Thread nD τ) arg5 fullShare x2 ∗ owns (c : Thread nD τ) arg6 fullShare xo
                ∗ owns (c : Thread nD τ) arg7 fullShare (Gen.k0_pay2 x0 x2)
                ∗ owns (c : Thread nD τ) arg8 fullShare (Gen.k0_pay4 x1 (Gen.k0_pay2 x0 x2) (Gen.k0_pay3 (F := F)))) -∗ K ⟨⟩))
      ⊢ wp frame (wpE (defs₀ (F := F)) Variants.none c none) E (cc0__attn_kernel i arg3 harg3 arg4 harg4 arg5 harg5 arg6 harg6 arg7 harg7 arg8 harg8) K := by
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap
    · iexact H7
    · ipureintro
      sl_unfold_run_names
      rw [read_writes_whole _ _ hz2, readAt_whole harg3 hz3q, readAt_whole harg5 hz2w]
  iexists _; isplitr
  swap
  · iexact H8
  · ipureintro
    sl_unfold_run_names
    rw [read_writes_whole _ _ hz2, readCov_whole _ hz2, readCov_whole _ hz2, readAt_whole harg4 hz3k,
      readAt_whole harg3 hz3q, readAt_whole harg5 hz2w]

set_option maxHeartbeats 1000000 in
/-- LAST CASE (reduction coordinate 1). From the query block `x0`, the key block `x1`, the weights `x2`, the query
    scratch holding `q`, the accumulator holding `acc` and an output block holding anything, the body runs to the
    continuation with the inputs and the query scratch unchanged, the accumulator holding the update of `acc` by the
    term of `x1` under `q`, and the output block holding that same value reshaped to the block's shape. -/
theorem run_last (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S256x256 .f32) (harg5 : arg5.IsWhole) (arg6 : Memref sig .tc .vmem S1x1024x256 .f32) (harg6 : arg6.IsWhole) (arg7 : Memref sig .tc .vmem S1024x256 .f32) (harg7 : arg7.IsWhole) (arg8 : Memref sig .tc .vmem S1024x256 .f32) (harg8 : arg8.IsWhole)
    (hc0 : ¬condFirst i) (hc1 : condLast i) (x0 : Vec F S1x1024x256 .f32) (x1 : Vec F S1x2048x256 .f32) (x2 : Vec F S256x256 .f32) (q acc : Vec F S1024x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
          ∗ owns (c : Thread nD τ) arg7 fullShare q ∗ owns (c : Thread nD τ) arg8 fullShare acc
          ∗ (iprop(owns (c : Thread nD τ) arg3 fullShare x0 ∗ owns (c : Thread nD τ) arg4 fullShare x1 ∗ owns (c : Thread nD τ) arg5 fullShare x2
                ∗ owns (c : Thread nD τ) arg6 fullShare (Gen.k0_pay1 (Gen.k0_pay4 x1 q acc))
                ∗ owns (c : Thread nD τ) arg7 fullShare q
                ∗ owns (c : Thread nD τ) arg8 fullShare (Gen.k0_pay4 x1 q acc)) -∗ K ⟨⟩))
      ⊢ wp frame (wpE (defs₀ (F := F)) Variants.none c none) E (cc0__attn_kernel i arg3 harg3 arg4 harg4 arg5 harg5 arg6 harg6 arg7 harg7 arg8 harg8) K := by
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg3.eq_unread hf3; obtain rfl := harg4.eq_unread hf4; obtain rfl := harg5.eq_unread hf5
  obtain rfl := harg7.eq_unread hf7; obtain rfl := harg8.eq_unread hf8
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    · ipureintro
      sl_unfold_run_names
      rw [read_writes_whole _ _ hz3q, readCov_whole _ hz2, readAt_whole harg4 hz3k, readAt_whole harg7 hz2,
        readAt_whole harg8 hz2]
  isplitl [H7]
  · iexists _; isplitr; · ipureintro; exact harg7.read_unread _
    iexact H7
  iexists _; isplitr
  swap
  · iexact H8
  · ipureintro
    sl_unfold_run_names
    rw [read_writes_whole _ _ hz2, readAt_whole harg4 hz3k, readAt_whole harg7 hz2, readAt_whole harg8 hz2]

end Cert.KernelIdeal.Body

end
-- ==== Proof.FrameBody.lean ====
/-
  The body obligation of the attention kernel's pipeline: what one call of the kernel body does to the four staging
  buffers and the two scratch buffers, at any of the 32 grid points.

  A point's parity is its key-tile coordinate, and the body has exactly two behaviours.

  * At an even point (the first key tile of a pair) the body computes the projected query tile from the query block
    and the weight block into the first scratch buffer, starts the accumulator in the second scratch buffer from zero
    and adds the first key tile's term. Whatever the scratch buffers held before is overwritten, so the invariant
    before the point is only needed to OWN them: at the very first point it gives them at unknown contents, later at
    the previous pair's contents, which are forgotten. The output block is not touched and is handed back as found.
  * At an odd point (the second key tile) the scratch buffers hold what the even point before left: the same query
    tile and the first term of the accumulator. The body adds the second key tile's term and copies the accumulator
    to the output block, whose previous contents are overwritten.

  In both cases the three input blocks are only read and come back unchanged, and the core's debt is untouched. The
  contents the scratch buffers are left at are, by the parity equations of the proof data, exactly the pair's query
  tile and the accumulator after the point.
-/
import proofs.«171016_j54803782697259_2_alg».proof.Proof.FrameData
import proofs.«171016_j54803782697259_2_alg».proof.Proof.BodyRuns

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t: the invariant, what the core owes, and each window's current staging
    buffer at what the pipeline put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns: the invariant after the point, the same debt, and each buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point: by the point's parity one of the two runs of the kernel function applies; the invariant
    hands it the scratch buffers and takes them back at the pair's query tile and the accumulator after the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  rw [show (dats m 0 c).leavesExact 2 t = owns (c : Thread nD τ) (st0_2 t) fullShare ((dats m 0 c).after 2 t) from rfl, after_2]
  by_cases h0 : t.val % 2 = 0
  · -- an even point: the pair's first
    have hc0 : Body.condFirst (grid0.coords t) := (hcondFirst t).mpr h0
    have hc1 : ¬ Body.condLast (grid0.coords t) := fun h => (by omega : ¬ t.val % 2 = 1) ((hcondLast t).mp h)
    rw [Dat.leavesExact_idle (dats m 0 c) 3 t (idleOut_even t h0) (noFlushOut_even t h0)]
    rw [qAt_even m c t h0, accAt_even m c t h0]
    by_cases hz : t.val = 0
    · rw [PhiS_castSucc m c t, PhiS_zero m c _ _ hz, scopedRest_scratch]
      iintro ⟨⟨HQ, HA⟩, Ho, ⟨%d0, H0⟩, ⟨%d1, H1⟩, ⟨%d2, H2⟩, ⟨%d3, H3⟩⟩
      iapply (Body.run_first c (grid0.coords t) _ _ _ _ _ _ _ _ _ _ _ _ hc0 hc1 (iblk m c 0 t) (iblk m c 1 t) (iblk m c 2 t)
        ((dats m 0 c).before 3 t d3) Set.univ _)
      isplitl [H0]; · iexact H0
      isplitl [H1]; · iexact H1
      isplitl [H2]; · iexact H2
      isplitl [H3]; · iexact H3
      isplitl [HQ]; · iexact HQ
      isplitl [HA]; · iexact HA
      iintro ⟨H0, H1, H2, H3, HQ, HA⟩
      isplitl [HQ HA]
      · isplitl [HQ]; · iexact HQ
        iexact HA
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HQ, HA⟩, Ho, ⟨%d0, H0⟩, ⟨%d1, H1⟩, ⟨%d2, H2⟩, ⟨%d3, H3⟩⟩
      iapply (Body.run_first c (grid0.coords t) _ _ _ _ _ _ _ _ _ _ _ _ hc0 hc1 (iblk m c 0 t) (iblk m c 1 t) (iblk m c 2 t)
        ((dats m 0 c).before 3 t d3) Set.univ _)
      isplitl [H0]; · iexact H0
      isplitl [H1]; · iexact H1
      isplitl [H2]; · iexact H2
      isplitl [H3]; · iexact H3
      isplitl [HQ]; · iexists _; iexact HQ
      isplitl [HA]; · iexists _; iexact HA
      iintro ⟨H0, H1, H2, H3, HQ, HA⟩
      isplitl [HQ HA]
      · isplitl [HQ]; · iexact HQ
        iexact HA
      isplitl [Ho]; · iexact Ho
      isplitl [H0]; · iexact H0
      isplitl [H1]; · iexact H1
      isplitl [H2]; · iexact H2
      iexists _; iexact H3
  · -- an odd point: the pair's last
    have h1 : t.val % 2 = 1 := by omega
    have hz : t.val ≠ 0 := by omega
    have hc0 : ¬ Body.condFirst (grid0.coords t) := fun h => h0 ((hcondFirst t).mp h)
    have hc1 : Body.condLast (grid0.coords t) := (hcondLast t).mpr h1
    rw [show (dats m 0 c).leavesExact 3 t = owns (c : Thread nD τ) (st0_3 t) fullShare ((dats m 0 c).after 3 t) from by
      unfold Dat.leavesExact; rw [liveOut_odd t h1], after_3]
    unfold outAt
    rw [accAt_odd m c t h1, qAt_odd m c t h1]
    rw [PhiS_castSucc m c t, PhiS_pos m c _ _ hz]
    iintro ⟨⟨HQ, HA⟩, Ho, ⟨%d0, H0⟩, ⟨%d1, H1⟩, ⟨%d2, H2⟩, ⟨%d3, H3⟩⟩
    iapply (Body.run_last c (grid0.coords t) _ _ _ _ _ _ _ _ _ _ _ _ hc0 hc1 (iblk m c 0 t) (iblk m c 1 t) (iblk m c 2 t)
      (qAt m c ⟨t.val - 1, Nat.lt_of_le_of_lt (Nat.sub_le _ _) t.isLt⟩)
      (accAt m c ⟨t.val - 1, Nat.lt_of_le_of_lt (Nat.sub_le _ _) t.isLt⟩) Set.univ _)
    isplitl [H0]; · iexact H0
    isplitl [H1]; · iexact H1
    isplitl [H2]; · iexact H2
    isplitl [H3]; · iexists _; iexact H3
    isplitl [HQ]; · iexact HQ
    isplitl [HA]; · iexact HA
    iintro ⟨H0, H1, H2, H3, HQ, HA⟩
    isplitl [HQ HA]
    · isplitl [HQ]; · iexact HQ
      iexact HA
    isplitl [Ho]; · iexact Ho
    isplitl [H0]; · iexact H0
    isplitl [H1]; · iexact H1
    isplitl [H2]; · iexact H2
    iexact H3

/-- The library's body obligation, at every point. -/
theorem body_obligation (c : Dev nD) :
    BodyObligation (dats (F := F) m 0 c) (defs₀ (F := F)) Variants.none () Set.univ := fun t => by
  rw [bigSep_W0, bigSep_W0]
  exact sound_body m c t

end Cert.KernelIdeal.Run

end
-- ==== Proof.KFrameData.lean ====
/-
  The pipeline's proof data for the attention kernel: grid 4 × 4 × 2 (batch, query tile of 1024 rows, key tile of
  2048 rows), 32 points in row-major order, so a point's parity is its key-tile coordinate. At an even point the
  body writes the projected query tile q = x_q · W into the first scratch buffer and starts the accumulator in the
  second one from zero; at every point it adds sigmoid(q · x_kᵀ) · x_k to the accumulator; at an odd point it copies
  the accumulator to the output block, which is then written back. So everything a pair of points (2k, 2k+1) leaves
  is a function of the blocks the two points read, and nothing is carried from one pair to the next.

  The input array is read through TWO windows (the query tile and the key tile). Both only read it, so its full
  share is dealt in halves, one to each window.
-/
import proofs.«171016_j54803782697259_2_alg».proof.Proof.Gen.Kernel.Launch
import proofs.«171016_j54803782697259_2_alg».proof.Proof.Gen.Kernel.Skeleton
import proofs.«171016_j54803782697259_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- A core's buffer contents when the region is entered: the launch contents (no host operation precedes it). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two cases, decided over the grid -/

/-- The key-tile coordinate is 0: the point starts a pair. -/
abbrev condFirst (i : grid0.Coords) : Prop :=
  (Scalar.cmpi .ne (Scalar.extui (Scalar.cmpi .eq (BitVec.ofNat 32 (i 2).val) 0#32)) 0#32) = 1#1
/-- The key-tile coordinate is 1: the point ends a pair. -/
abbrev condLast (i : grid0.Coords) : Prop := k0_cond2 i = 1#1

theorem hcondFirst : ∀ t : Fin cfg0.N, condFirst (grid0.coords t) ↔ t.val % 2 = 0 :=
  (by decide +kernel : ∀ t : Fin grid0.N, condFirst (grid0.coords t) ↔ t.val % 2 = 0)
theorem hcondLast : ∀ t : Fin cfg0.N, condLast (grid0.coords t) ↔ t.val % 2 = 1 :=
  (by decide +kernel : ∀ t : Fin grid0.N, condLast (grid0.coords t) ↔ t.val % 2 = 1)

/-- The output window is idle at the even points (the body stores nothing into it there) and is not written back there; -/
theorem idleOut_even : ∀ t : Fin cfg0.N, t.val % 2 = 0 → cfg0.idle 3 (grid0.coords t) = true :=
  (by decide +kernel : ∀ t : Fin grid0.N, t.val % 2 = 0 → idle0 3 (grid0.coords t) = true)
theorem noFlushOut_even : ∀ t : Fin cfg0.N, t.val % 2 = 0 → (cfg0.win 3).flush t = false :=
  (by decide +kernel : ∀ t : Fin grid0.N, t.val % 2 = 0 → win0_3.flush t = false)
/-- it is live at the odd ones, and written back there. -/
theorem liveOut_odd : ∀ t : Fin cfg0.N, t.val % 2 = 1 → cfg0.idle 3 (grid0.coords t) = false :=
  (by decide +kernel : ∀ t : Fin grid0.N, t.val % 2 = 1 → idle0 3 (grid0.coords t) = false)

/-! ## What a pair of points computes -/

/-- The even point of the pair `t` belongs to. -/
def pairStart (t : Fin cfg0.N) : Fin cfg0.N := ⟨t.val - t.val % 2, Nat.lt_of_le_of_lt (Nat.sub_le _ _) t.isLt⟩

theorem pairStart_even (t : Fin cfg0.N) (h : t.val % 2 = 0) : pairStart t = t := Fin.ext (by simp [pairStart, h])
theorem pairStart_val_odd (t : Fin cfg0.N) (h : t.val % 2 = 1) : (pairStart t).val = t.val - 1 := by simp [pairStart, h]

/-- The projected query tile of `t`'s pair: the first scratch buffer's contents after either point of the pair. -/
def qAt (c : Dev nD) (t : Fin cfg0.N) : Vec F S1024x256 .f32 :=
  k0_pay2 (iblk m c 0 (pairStart t)) (iblk m c 2 (pairStart t))

/-- The accumulator after the pair's first point: the first key tile's term added to zero. -/
def accFirst (c : Dev nD) (t : Fin cfg0.N) : Vec F S1024x256 .f32 :=
  k0_pay4 (iblk m c 1 (pairStart t)) (qAt m c t) (k0_pay3 (F := F))

/-- The accumulator after point `t`: after an even point the first key tile's term, after an odd one both. -/
def accAt (c : Dev nD) (t : Fin cfg0.N) : Vec F S1024x256 .f32 :=
  if t.val % 2 = 0 then accFirst m c t else k0_pay4 (iblk m c 1 t) (qAt m c t) (accFirst m c t)

/-- What an odd point stores into the output block: the accumulator, as a [1, 1024, 256] array. -/
def outAt (c : Dev nD) (t : Fin cfg0.N) : Vec F S1x1024x256 .f32 := k0_pay1 (accAt m c t)

/-! ## The carried contents by the point's parity -/

/-- An odd point and the even point before it belong to one pair. -/
theorem pairStart_pred (t : Fin cfg0.N) (h : t.val % 2 = 1) :
    pairStart t = pairStart ⟨t.val - 1, Nat.lt_of_le_of_lt (Nat.sub_le _ _) t.isLt⟩ :=
  Fin.ext (by simp only [pairStart]; omega)

/-- At an even point the projected query tile is computed from that point's own blocks, -/
theorem qAt_even (c : Dev nD) (t : Fin cfg0.N) (h : t.val % 2 = 0) :
    qAt m c t = k0_pay2 (iblk m c 0 t) (iblk m c 2 t) := by
  unfold qAt; rw [pairStart_even t h]

/-- and the accumulator is the first key tile's term over zero. -/
theorem accAt_even (c : Dev nD) (t : Fin cfg0.N) (h : t.val % 2 = 0) :
    accAt m c t = k0_pay4 (iblk m c 1 t) (k0_pay2 (iblk m c 0 t) (iblk m c 2 t)) (k0_pay3 (F := F)) := by
  unfold accAt accFirst qAt; rw [if_pos h, pairStart_even t h]

/-- At an odd point the projected query tile is the one the point before left, -/
theorem qAt_odd (c : Dev nD) (t : Fin cfg0.N) (h : t.val % 2 = 1) :
    qAt m c t = qAt m c ⟨t.val - 1, Nat.lt_of_le_of_lt (Nat.sub_le _ _) t.isLt⟩ := by
  unfold qAt; rw [pairStart_pred t h]

/-- and the accumulator is the second key tile's term added to what the point before left. -/
theorem accAt_odd (c : Dev nD) (t : Fin cfg0.N) (h : t.val % 2 = 1) :
    accAt m c t = k0_pay4 (iblk m c 1 t) (qAt m c ⟨t.val - 1, Nat.lt_of_le_of_lt (Nat.sub_le _ _) t.isLt⟩)
      (accAt m c ⟨t.val - 1, Nat.lt_of_le_of_lt (Nat.sub_le _ _) t.isLt⟩) := by
  have hp : (⟨t.val - 1, Nat.lt_of_le_of_lt (Nat.sub_le _ _) t.isLt⟩ : Fin cfg0.N).val % 2 = 0 := by
    show (t.val - 1) % 2 = 0; omega
  have hn : ¬ t.val % 2 = 0 := by omega
  unfold accAt accFirst qAt
  rw [if_neg hn, if_pos hp, pairStart_pred t h]

/-! ## The invariant between points -/

abbrev scQ : Memref sig .tc .vmem S1024x256 .f32 := Memref.whole cc0_scratch0
abbrev scAcc : Memref sig .tc .vmem S1024x256 .f32 := Memref.whole cc0_scratch1

/-- The core's scoped buffers that are no staging buffer are the two scratch buffers. Before the first point they hold
    anything; after point `n` the first holds the pair's projected query tile and the second the accumulator. -/
def PhiS (c : Dev nD) : (n : ℕ) → n ≤ cfg0.N → sProp 𝕄
  | 0, _ => Pipeline.scopedRest spec0 c
  | n + 1, hn => iprop(owns (c : Thread nD τ) scQ fullShare (qAt m c ⟨n, hn⟩)
      ∗ owns (c : Thread nD τ) scAcc fullShare (accAt m c ⟨n, hn⟩))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scQ fullShare (qAt m c ⟨n, hn⟩)
      ∗ owns (c : Thread nD τ) scAcc fullShare (accAt m c ⟨n, hn⟩)) := rfl

theorem PhiS_pos (c : Dev nD) (n : ℕ) (h : n ≤ cfg0.N) (hz : n ≠ 0) :
    PhiS m c n h = iprop(owns (c : Thread nD τ) scQ fullShare (qAt m c ⟨n - 1, by omega⟩)
      ∗ owns (c : Thread nD τ) scAcc fullShare (accAt m c ⟨n - 1, by omega⟩)) := by
  cases n with
  | zero => exact absurd rfl hz
  | succ n => rfl

/-- The scoped rest with the two scratch buffers as memrefs owned at some contents. -/
theorem scopedRest_scratch (c : Dev nD) :
    (Pipeline.scopedRest spec0 c : sProp 𝕄)
      = iprop((∃ d, owns (c : Thread nD τ) scQ fullShare d) ∗ (∃ d, owns (c : Thread nD τ) scAcc fullShare d)) := by
  rw [scopedRest0_eq]; simp only [scQ, scAcc, owns_whole]; try rfl

/-! ## The proof data -/

/-- The arrays as the region finds them; after the body each input's buffer at its block, the output's at `outAt`
    (consulted at the odd points only); the invariant `PhiS`; the input array's share dealt in halves to its two
    windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

end Cert.Kernel.Run

end
-- ==== Proof.KBodyRuns.lean ====
/- The two runs of the attention body, one for each case the grid meets.

   The body keeps two scratch blocks between grid points: the projected queries (x_q · W, computed once per query
   tile) and the accumulator (the running sum over key tiles of sigmoid(q · x_kᵀ) · x_k). At a point whose reduction
   coordinate is 0 it computes the queries and clears the accumulator before adding the point's term; at a point
   whose reduction coordinate is the last it adds the point's term and then copies the accumulator to the output
   block. Every load and store moves a whole block, so each buffer ends holding exactly the last value stored in it.

   Both triples are stated for an arbitrary float interpretation, over the four named pure values of the body
   (the output copy, the query projection, the zero block, the accumulator update), which are never opened here. -/
import proofs.«171016_j54803782697259_2_alg».proof.Proof.Gen.Kernel.Launch
import proofs.«171016_j54803782697259_2_alg».proof.Proof.Gen.Kernel.Skeleton
import proofs.«171016_j54803782697259_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first conditional of the body: the reduction coordinate is 0. -/
abbrev condFirst (i : grid0.Coords) : Prop := (Scalar.cmpi .ne (Scalar.extui (Scalar.cmpi .eq (BitVec.ofNat 32 (i 2).val) 0#32)) 0#32) = 1#1
/-- The second conditional of the body: the reduction coordinate is the last one. -/
abbrev condLast (i : grid0.Coords) : Prop := k0_cond2 i = 1#1

/-! ## Whole-block rectangles

Each rectangle the body loads or stores through is the whole block at zero offsets; the zeros are spelt as explicit
vectors, one per shape. -/

/-- The zero offsets of a rank-2 whole-buffer rectangle, as the constant function. -/
theorem hz2 : (![0, 0] : Fin S1024x256.rank → ℕ) = fun _ => 0 := by funext a; fin_cases a <;> rfl
/-- The same for the square weight buffer. -/
theorem hz2w : (![0, 0] : Fin S256x256.rank → ℕ) = fun _ => 0 := by funext a; fin_cases a <;> rfl
/-- The zero offsets of a rank-3 whole-buffer rectangle (query block / output block). -/
theorem hz3q : (![0, 0, 0] : Fin S1x1024x256.rank → ℕ) = fun _ => 0 := by funext a; fin_cases a <;> rfl
/-- The zero offsets of a rank-3 whole-buffer rectangle (key block). -/
theorem hz3k : (![0, 0, 0] : Fin S1x2048x256.rank → ℕ) = fun _ => 0 := by funext a; fin_cases a <;> rfl

/-! ## Reading a block back

What a whole-block store leaves, and what a whole-block load reads. -/

section WholeBuffer

variable {sg : RefSig} {κ : Kind} {sp : Space} {S : Shape} {e : EltTy}

/-- After a store through the whole-shape rectangle at zero offsets, made last, the buffer reads the stored value,
    whatever the earlier stores and the prior contents were. -/
theorem read_writes_whole (v : View sg κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A load of the whole buffer after one whole-buffer store reads the stored value. -/
theorem readCov_whole (v : View sg κ sp S e) {off : Fin S.rank → ℕ} (h : off = fun _ => 0)
    (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v h inb w

/-- A load of the whole of a whole memref whose contents read `X` reads `X`. -/
theorem readAt_whole {m : Memref sg κ sp S e} (hm : m.IsWhole) {off : Fin S.rank → ℕ} (h : off = fun _ => 0)
    (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

end WholeBuffer

/-! ## The two cases -/

set_option maxHeartbeats 1000000 in
/-- FIRST CASE (reduction coordinate 0). From the query block `x0`, the key block `x1`, the weights `x2`, an output
    block holding `xo` and the two scratch blocks holding anything, the body runs to the continuation with the inputs
    and the output block unchanged, the query scratch holding the projection of `x0` by `x2`, and the accumulator
    holding the update of the zero block by the term of `x1` under those queries. -/
theorem run_first (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S256x256 .f32) (harg5 : arg5.IsWhole) (arg6 : Memref sig .tc .vmem S1x1024x256 .f32) (harg6 : arg6.IsWhole) (arg7 : Memref sig .tc .vmem S1024x256 .f32) (harg7 : arg7.IsWhole) (arg8 : Memref sig .tc .vmem S1024x256 .f32) (harg8 : arg8.IsWhole)
    (hc0 : condFirst i) (hc1 : ¬condLast i) (x0 : Vec F S1x1024x256 .f32) (x1 : Vec F S1x2048x256 .f32) (x2 : Vec F S256x256 .f32) (xo : Vec F S1x1024x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo
          ∗ (∃ d, owns (c : Thread nD τ) arg7 fullShare d) ∗ (∃ d, owns (c : Thread nD τ) arg8 fullShare d)
          ∗ (iprop(owns (c : Thread nD τ) arg3 fullShare x0 ∗ owns (c : Thread nD τ) arg4 fullShare x1 ∗ owns (c : Thread nD τ) arg5 fullShare x2 ∗ owns (c : Thread nD τ) arg6 fullShare xo
                ∗ owns (c : Thread nD τ) arg7 fullShare (Gen.k0_pay2 x0 x2)
                ∗ owns (c : Thread nD τ) arg8 fullShare (Gen.k0_pay4 x1 (Gen.k0_pay2 x0 x2) (Gen.k0_pay3 (F := F)))) -∗ K ⟨⟩))
      ⊢ wp frame (wpE (defs₀ (F := F)) Variants.none c none) E (cc0__attn_kernel i arg3 harg3 arg4 harg4 arg5 harg5 arg6 harg6 arg7 harg7 arg8 harg8) K := by
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap
    · iexact H7
    · ipureintro
      sl_unfold_run_names
      rw [read_writes_whole _ _ hz2, readAt_whole harg3 hz3q, readAt_whole harg5 hz2w]
  iexists _; isplitr
  swap
  · iexact H8
  · ipureintro
    sl_unfold_run_names
    rw [read_writes_whole _ _ hz2, readCov_whole _ hz2, readCov_whole _ hz2, readAt_whole harg4 hz3k,
      readAt_whole harg3 hz3q, readAt_whole harg5 hz2w]

set_option maxHeartbeats 1000000 in
/-- LAST CASE (reduction coordinate 1). From the query block `x0`, the key block `x1`, the weights `x2`, the query
    scratch holding `q`, the accumulator holding `acc` and an output block holding anything, the body runs to the
    continuation with the inputs and the query scratch unchanged, the accumulator holding the update of `acc` by the
    term of `x1` under `q`, and the output block holding that same value reshaped to the block's shape. -/
theorem run_last (c : Dev nD) (i : grid0.Coords) (arg3 : Memref sig .tc .vmem S1x1024x256 .f32) (harg3 : arg3.IsWhole) (arg4 : Memref sig .tc .vmem S1x2048x256 .f32) (harg4 : arg4.IsWhole) (arg5 : Memref sig .tc .vmem S256x256 .f32) (harg5 : arg5.IsWhole) (arg6 : Memref sig .tc .vmem S1x1024x256 .f32) (harg6 : arg6.IsWhole) (arg7 : Memref sig .tc .vmem S1024x256 .f32) (harg7 : arg7.IsWhole) (arg8 : Memref sig .tc .vmem S1024x256 .f32) (harg8 : arg8.IsWhole)
    (hc0 : ¬condFirst i) (hc1 : condLast i) (x0 : Vec F S1x1024x256 .f32) (x1 : Vec F S1x2048x256 .f32) (x2 : Vec F S256x256 .f32) (q acc : Vec F S1024x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
          ∗ owns (c : Thread nD τ) arg7 fullShare q ∗ owns (c : Thread nD τ) arg8 fullShare acc
          ∗ (iprop(owns (c : Thread nD τ) arg3 fullShare x0 ∗ owns (c : Thread nD τ) arg4 fullShare x1 ∗ owns (c : Thread nD τ) arg5 fullShare x2
                ∗ owns (c : Thread nD τ) arg6 fullShare (Gen.k0_pay1 (Gen.k0_pay4 x1 q acc))
                ∗ owns (c : Thread nD τ) arg7 fullShare q
                ∗ owns (c : Thread nD τ) arg8 fullShare (Gen.k0_pay4 x1 q acc)) -∗ K ⟨⟩))
      ⊢ wp frame (wpE (defs₀ (F := F)) Variants.none c none) E (cc0__attn_kernel i arg3 harg3 arg4 harg4 arg5 harg5 arg6 harg6 arg7 harg7 arg8 harg8) K := by
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg3.eq_unread hf3; obtain rfl := harg4.eq_unread hf4; obtain rfl := harg5.eq_unread hf5
  obtain rfl := harg7.eq_unread hf7; obtain rfl := harg8.eq_unread hf8
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    · ipureintro
      sl_unfold_run_names
      rw [read_writes_whole _ _ hz3q, readCov_whole _ hz2, readAt_whole harg4 hz3k, readAt_whole harg7 hz2,
        readAt_whole harg8 hz2]
  isplitl [H7]
  · iexists _; isplitr; · ipureintro; exact harg7.read_unread _
    iexact H7
  iexists _; isplitr
  swap
  · iexact H8
  · ipureintro
    sl_unfold_run_names
    rw [read_writes_whole _ _ hz2, readAt_whole harg4 hz3k, readAt_whole harg7 hz2, readAt_whole harg8 hz2]

end Cert.Kernel.Body

end
-- ==== Proof.KFrameBody.lean ====
/-
  The body obligation of the attention kernel's pipeline: what one call of the kernel body does to the four staging
  buffers and the two scratch buffers, at any of the 32 grid points.

  A point's parity is its key-tile coordinate, and the body has exactly two behaviours.

  * At an even point (the first key tile of a pair) the body computes the projected query tile from the query block
    and the weight block into the first scratch buffer, starts the accumulator in the second scratch buffer from zero
    and adds the first key tile's term. Whatever the scratch buffers held before is overwritten, so the invariant
    before the point is only needed to OWN them: at the very first point it gives them at unknown contents, later at
    the previous pair's contents, which are forgotten. The output block is not touched and is handed back as found.
  * At an odd point (the second key tile) the scratch buffers hold what the even point before left: the same query
    tile and the first term of the accumulator. The body adds the second key tile's term and copies the accumulator
    to the output block, whose previous contents are overwritten.

  In both cases the three input blocks are only read and come back unchanged, and the core's debt is untouched. The
  contents the scratch buffers are left at are, by the parity equations of the proof data, exactly the pair's query
  tile and the accumulator after the point.
-/
import proofs.«171016_j54803782697259_2_alg».proof.Proof.KFrameData
import proofs.«171016_j54803782697259_2_alg».proof.Proof.KBodyRuns

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t: the invariant, what the core owes, and each window's current staging
    buffer at what the pipeline put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns: the invariant after the point, the same debt, and each buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point: by the point's parity one of the two runs of the kernel function applies; the invariant
    hands it the scratch buffers and takes them back at the pair's query tile and the accumulator after the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  rw [show (dats m 0 c).leavesExact 2 t = owns (c : Thread nD τ) (st0_2 t) fullShare ((dats m 0 c).after 2 t) from rfl, after_2]
  by_cases h0 : t.val % 2 = 0
  · -- an even point: the pair's first
    have hc0 : Body.condFirst (grid0.coords t) := (hcondFirst t).mpr h0
    have hc1 : ¬ Body.condLast (grid0.coords t) := fun h => (by omega : ¬ t.val % 2 = 1) ((hcondLast t).mp h)
    rw [Dat.leavesExact_idle (dats m 0 c) 3 t (idleOut_even t h0) (noFlushOut_even t h0)]
    rw [qAt_even m c t h0, accAt_even m c t h0]
    by_cases hz : t.val = 0
    · rw [PhiS_castSucc m c t, PhiS_zero m c _ _ hz, scopedRest_scratch]
      iintro ⟨⟨HQ, HA⟩, Ho, ⟨%d0, H0⟩, ⟨%d1, H1⟩, ⟨%d2, H2⟩, ⟨%d3, H3⟩⟩
      iapply (Body.run_first c (grid0.coords t) _ _ _ _ _ _ _ _ _ _ _ _ hc0 hc1 (iblk m c 0 t) (iblk m c 1 t) (iblk m c 2 t)
        ((dats m 0 c).before 3 t d3) Set.univ _)
      isplitl [H0]; · iexact H0
      isplitl [H1]; · iexact H1
      isplitl [H2]; · iexact H2
      isplitl [H3]; · iexact H3
      isplitl [HQ]; · iexact HQ
      isplitl [HA]; · iexact HA
      iintro ⟨H0, H1, H2, H3, HQ, HA⟩
      isplitl [HQ HA]
      · isplitl [HQ]; · iexact HQ
        iexact HA
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HQ, HA⟩, Ho, ⟨%d0, H0⟩, ⟨%d1, H1⟩, ⟨%d2, H2⟩, ⟨%d3, H3⟩⟩
      iapply (Body.run_first c (grid0.coords t) _ _ _ _ _ _ _ _ _ _ _ _ hc0 hc1 (iblk m c 0 t) (iblk m c 1 t) (iblk m c 2 t)
        ((dats m 0 c).before 3 t d3) Set.univ _)
      isplitl [H0]; · iexact H0
      isplitl [H1]; · iexact H1
      isplitl [H2]; · iexact H2
      isplitl [H3]; · iexact H3
      isplitl [HQ]; · iexists _; iexact HQ
      isplitl [HA]; · iexists _; iexact HA
      iintro ⟨H0, H1, H2, H3, HQ, HA⟩
      isplitl [HQ HA]
      · isplitl [HQ]; · iexact HQ
        iexact HA
      isplitl [Ho]; · iexact Ho
      isplitl [H0]; · iexact H0
      isplitl [H1]; · iexact H1
      isplitl [H2]; · iexact H2
      iexists _; iexact H3
  · -- an odd point: the pair's last
    have h1 : t.val % 2 = 1 := by omega
    have hz : t.val ≠ 0 := by omega
    have hc0 : ¬ Body.condFirst (grid0.coords t) := fun h => h0 ((hcondFirst t).mp h)
    have hc1 : Body.condLast (grid0.coords t) := (hcondLast t).mpr h1
    rw [show (dats m 0 c).leavesExact 3 t = owns (c : Thread nD τ) (st0_3 t) fullShare ((dats m 0 c).after 3 t) from by
      unfold Dat.leavesExact; rw [liveOut_odd t h1], after_3]
    unfold outAt
    rw [accAt_odd m c t h1, qAt_odd m c t h1]
    rw [PhiS_castSucc m c t, PhiS_pos m c _ _ hz]
    iintro ⟨⟨HQ, HA⟩, Ho, ⟨%d0, H0⟩, ⟨%d1, H1⟩, ⟨%d2, H2⟩, ⟨%d3, H3⟩⟩
    iapply (Body.run_last c (grid0.coords t) _ _ _ _ _ _ _ _ _ _ _ _ hc0 hc1 (iblk m c 0 t) (iblk m c 1 t) (iblk m c 2 t)
      (qAt m c ⟨t.val - 1, Nat.lt_of_le_of_lt (Nat.sub_le _ _) t.isLt⟩)
      (accAt m c ⟨t.val - 1, Nat.lt_of_le_of_lt (Nat.sub_le _ _) t.isLt⟩) Set.univ _)
    isplitl [H0]; · iexact H0
    isplitl [H1]; · iexact H1
    isplitl [H2]; · iexact H2
    isplitl [H3]; · iexists _; iexact H3
    isplitl [HQ]; · iexact HQ
    isplitl [HA]; · iexact HA
    iintro ⟨H0, H1, H2, H3, HQ, HA⟩
    isplitl [HQ HA]
    · isplitl [HQ]; · iexact HQ
      iexact HA
    isplitl [Ho]; · iexact Ho
    isplitl [H0]; · iexact H0
    isplitl [H1]; · iexact H1
    isplitl [H2]; · iexact H2
    iexact H3

/-- The library's body obligation, at every point. -/
theorem body_obligation (c : Dev nD) :
    BodyObligation (dats (F := F) m 0 c) (defs₀ (F := F)) Variants.none () Set.univ := fun t => by
  rw [bigSep_W0, bigSep_W0]
  exact sound_body m c t

end Cert.Kernel.Run

end
-- ==== Proof.FrameLaunch.lean ====
/-
  The launch of the attention kernel's one region. The input array is handed to the kernel through two read-only
  windows, so at entry its full share is dealt in halves: the left half to the query-tile window, the right half to
  the key-tile window; the weight array and the output array go whole to their windows. From the body's obligation
  at every grid point the run follows: every weakly fair execution terminates, and each window's array ends at
  what the write-backs make of it.
-/
import proofs.«171016_j54803782697259_2_alg».proof.Proof.FrameData

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A big separating conjunction over an inserted element, in the proof mode's spelling. -/
theorem bigSep_insert_sep {I : Type} [DecidableEq I] {s : Finset I} {i : I} (hi : i ∉ s) {Φ : I → sProp 𝕄} :
    bigSep (insert i s) Φ = iprop(Φ i ∗ bigSep s Φ) := BI.bigSep_insert hi

/-- The three distinct buffers behind the four windows' arrays. -/
theorem arrRefs_eq : (Finset.univ.image (Pipeline.arrRef spec0) : Finset (Ref sig .tc)) = {main_arg0, main_arg1, main_v0} := by decide

/-- The buffers behind the arrays, each whole at the full share, make the windows' arrays at entry: the input array's
    share is halved between its two windows. -/
theorem hsplit (c : Dev nD) :
    (Pipeline.arrBufs spec0 c (V m c) : sProp 𝕄) ⊢ (dats m 0 c).arrays ((dats m 0 c).arrAt · 0) := by
  unfold Pipeline.arrBufs Dat.arrays
  rw [arrRefs_eq, bigSep_W0]
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  (try rw [h0]); (try rw [h1]); (try rw [h2]); (try rw [h3])
  rw [bigSep_insert_sep (by decide), bigSep_insert_sep (by decide), BI.bigSep_singleton]
  iintro ⟨H0, H1, H2⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  iexact H2

/-- @main is the region and the return. -/
theorem main_region (c : Dev nD) : main (F := F) c = (.op (.customCall (Pipeline.entry 0) ()) fun _ => .ret ⟨⟩) := rfl

/-- THE RUN, from the body's obligation at every point: every weakly fair execution of @main terminates, without a
    fault, and each window's array ends at what the proof data's write-backs make of its entry contents. The scratch
    buffers reach the body through the invariant and are forgotten at the end; the generator register and the
    unscoped semaphores are let go. -/
theorem run_of_body
    (hbody : ∀ c, Pipeline.BodyObligationLoose (dats m 0 c) (defs₀ (F := F)) Variants.none () Set.univ) :
    θ_run defs (onTc (τ := τ) (main (F := F))) ⟨m, fun _ => 0, ρ⟩
      (fun r => ∀ c : Dev nD, ∀ w : Fin cfg0.W,
        r.2.mem ((spec0 w).arr.view.loc (c.tc : Thread nD τ)) = (dats m 0 c).arrAt w cfg0.N) := by
  classical
  exact Pipeline.θ_run_region_noSem_shared cfgs (dats m) () cellOf_inj 0 winFacts₀0 emb₁ defs₀ Variants.none m ρ main
    hbody block_pos0 arr_whole0 stage_whole0 (fun _ _ => rfl)
    (u₀ := initOf (Pipeline.cells cfgs cellOf_inj) (Pipeline.launchToks cfgs cellOf_inj))
    (hu₀ := .rfl)
    (V := V m)
    (hmain := Pipeline.hmain_region cfgs 0 defs₀ Variants.none m main main_region)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = PhiS m c 0 (Nat.zero_le _) from rfl, PhiS_zero m c 0 _ rfl]
      iintro ⟨-, H⟩; iexact H)
    (hout := fun c => by
      rw [show (dats m 0 c).Φ (Fin.last cfg0.N) = PhiS m c cfg0.N (le_refl _) from rfl,
        PhiS_pos m c _ _ (by rw [show cfg0.N = 32 from N_0]; omega), scopedRest_scratch]
      iintro ⟨HQ, HA⟩
      isplitr; · iempintro
      isplitl [HQ]
      · iexists _; iexact HQ
      · iexists _; iexact HA)
    (QY := fun _ _ => True)
    (hY := fun c s' => by
      iintro ⟨-, -, HSI⟩
      imodintro
      isplitr; · ipureintro; trivial
      iexact HSI)
    (hQ := fun s h c w => (h c).1 w)

/-- THE FRAME, from the body's obligation: both argument arrays are staged by input windows only, and an input
    window's array is never written, so each ends at its launch contents. -/
theorem frame_of_body
    (hbody : ∀ c, Pipeline.BodyObligationLoose (dats m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
     (h c 2).trans (((dats m 0 c).arrAt_in 2 rfl _).trans (A_eq m c 2))⟩) (run_of_body m ρ hbody)

end Cert.KernelIdeal.Run

end
-- ==== Proof.KFrameLaunch.lean ====
/-
  The launch of the attention kernel's one region. The input array is handed to the kernel through two read-only
  windows, so at entry its full share is dealt in halves: the left half to the query-tile window, the right half to
  the key-tile window; the weight array and the output array go whole to their windows. From the body's obligation
  at every grid point the run follows: every weakly fair execution terminates, and each window's array ends at
  what the write-backs make of it.
-/
import proofs.«171016_j54803782697259_2_alg».proof.Proof.KFrameData

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A big separating conjunction over an inserted element, in the proof mode's spelling. -/
theorem bigSep_insert_sep {I : Type} [DecidableEq I] {s : Finset I} {i : I} (hi : i ∉ s) {Φ : I → sProp 𝕄} :
    bigSep (insert i s) Φ = iprop(Φ i ∗ bigSep s Φ) := BI.bigSep_insert hi

/-- The three distinct buffers behind the four windows' arrays. -/
theorem arrRefs_eq : (Finset.univ.image (Pipeline.arrRef spec0) : Finset (Ref sig .tc)) = {main_arg0, main_arg1, main_v0} := by decide

/-- The buffers behind the arrays, each whole at the full share, make the windows' arrays at entry: the input array's
    share is halved between its two windows. -/
theorem hsplit (c : Dev nD) :
    (Pipeline.arrBufs spec0 c (V m c) : sProp 𝕄) ⊢ (dats m 0 c).arrays ((dats m 0 c).arrAt · 0) := by
  unfold Pipeline.arrBufs Dat.arrays
  rw [arrRefs_eq, bigSep_W0]
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  (try rw [h0]); (try rw [h1]); (try rw [h2]); (try rw [h3])
  rw [bigSep_insert_sep (by decide), bigSep_insert_sep (by decide), BI.bigSep_singleton]
  iintro ⟨H0, H1, H2⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  iexact H2

/-- @main is the region and the return. -/
theorem main_region (c : Dev nD) : main (F := F) c = (.op (.customCall (Pipeline.entry 0) ()) fun _ => .ret ⟨⟩) := rfl

/-- THE RUN, from the body's obligation at every point: every weakly fair execution of @main terminates, without a
    fault, and each window's array ends at what the proof data's write-backs make of its entry contents. The scratch
    buffers reach the body through the invariant and are forgotten at the end; the generator register and the
    unscoped semaphores are let go. -/
theorem run_of_body
    (hbody : ∀ c, Pipeline.BodyObligationLoose (dats m 0 c) (defs₀ (F := F)) Variants.none () Set.univ) :
    θ_run defs (onTc (τ := τ) (main (F := F))) ⟨m, fun _ => 0, ρ⟩
      (fun r => ∀ c : Dev nD, ∀ w : Fin cfg0.W,
        r.2.mem ((spec0 w).arr.view.loc (c.tc : Thread nD τ)) = (dats m 0 c).arrAt w cfg0.N) := by
  classical
  exact Pipeline.θ_run_region_noSem_shared cfgs (dats m) () cellOf_inj 0 winFacts₀0 emb₁ defs₀ Variants.none m ρ main
    hbody block_pos0 arr_whole0 stage_whole0 (fun _ _ => rfl)
    (u₀ := initOf (Pipeline.cells cfgs cellOf_inj) (Pipeline.launchToks cfgs cellOf_inj))
    (hu₀ := .rfl)
    (V := V m)
    (hmain := Pipeline.hmain_region cfgs 0 defs₀ Variants.none m main main_region)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = PhiS m c 0 (Nat.zero_le _) from rfl, PhiS_zero m c 0 _ rfl]
      iintro ⟨-, H⟩; iexact H)
    (hout := fun c => by
      rw [show (dats m 0 c).Φ (Fin.last cfg0.N) = PhiS m c cfg0.N (le_refl _) from rfl,
        PhiS_pos m c _ _ (by rw [show cfg0.N = 32 from N_0]; omega), scopedRest_scratch]
      iintro ⟨HQ, HA⟩
      isplitr; · iempintro
      isplitl [HQ]
      · iexists _; iexact HQ
      · iexists _; iexact HA)
    (QY := fun _ _ => True)
    (hY := fun c s' => by
      iintro ⟨-, -, HSI⟩
      imodintro
      isplitr; · ipureintro; trivial
      iexact HSI)
    (hQ := fun s h c w => (h c).1 w)

/-- THE FRAME, from the body's obligation: both argument arrays are staged by input windows only, and an input
    window's array is never written, so each ends at its launch contents. -/
theorem frame_of_body
    (hbody : ∀ c, Pipeline.BodyObligationLoose (dats m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
     (h c 2).trans (((dats m 0 c).arrAt_in 2 rfl _).trans (A_eq m c 2))⟩) (run_of_body m ρ hbody)

end Cert.Kernel.Run

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«171016_j54803782697259_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.AttnSpec.lean ====
/-
  Attention without a softmax, as one function of the input array and the weight matrix, and the algebra that joins
  a tiled evaluation of it to the whole.

  For an input x of shape [4, 4096, 256] and a weight w of shape [256, 256]:

    query  (b, n, d) = ∑ k, x (b, n, k) * w (k, d)
    score  (b, n, m) = ∑ d, query (b, n, d) * x (b, m, d)
    G      (b, n, e) = ∑ m, logistic (score (b, n, m)) * x (b, m, e)

  * G_apply            — G read at an index given by its three coordinates;
  * sum_halves         — a sum over 4096 terms is the sum over the first 2048 plus the sum over the last 2048
                         (commutative-monoid reasoning only: it holds for sums that meet an infinity too);
  * real_sub_self      — a real number minus itself is zero (false of an infinity on the extended reals);
  * real_mul, real_sum — products and finite sums of real numbers are real numbers;
  * three_pass         — for real-valued f and g, the three-pass product
                         ∑ f*g + ∑ f*(g − g) + ∑ (f − f)*g  is the plain product ∑ f*g:
                         both residues are zero entry by entry.
-/
import Mathlib.Data.EReal.Operations
import Idealize.ShloMosaic.PureOps.Ideal
import Idealize.ShloMosaic.Lib.ValueIdx

noncomputable section

open scoped BigOperators

namespace Cert.Attn

open Idealize.ShloMosaic Idealize.ShloMosaic.ValueIdx

/-- The query row: entry (b, n, d) of x · w. -/
def query (x : (⟨3, ![4, 4096, 256]⟩ : Shape).Idx → EReal) (w : (⟨2, ![256, 256]⟩ : Shape).Idx → EReal)
    (b : Fin 4) (n : Fin 4096) (d : Fin 256) : EReal :=
  ∑ k : Fin 256, x (ix3 b n k) * w (ix2 k d)

/-- The score of query row n against key row m of batch b. -/
def score (x : (⟨3, ![4, 4096, 256]⟩ : Shape).Idx → EReal) (w : (⟨2, ![256, 256]⟩ : Shape).Idx → EReal)
    (b : Fin 4) (n m : Fin 4096) : EReal :=
  ∑ d : Fin 256, query x w b n d * x (ix3 b m d)

/-- Attention with a logistic gate in place of the softmax: entry (b, n, e) is the sum over the key rows m of
    logistic (score (b, n, m)) * x (b, m, e). -/
def G (x : (⟨3, ![4, 4096, 256]⟩ : Shape).Idx → EReal) (w : (⟨2, ![256, 256]⟩ : Shape).Idx → EReal) :
    (⟨3, ![4, 4096, 256]⟩ : Shape).Idx → EReal :=
  fun i => ∑ m : Fin 4096, Ideal.logistic (∑ d : Fin 256,
    (∑ k : Fin 256, x (ix3 (i 0) (i 1) k) * w (ix2 k d)) * x (ix3 (i 0) m d)) * x (ix3 (i 0) m (i 2))

/-- G at an index given by coordinates. -/
theorem G_apply (x : (⟨3, ![4, 4096, 256]⟩ : Shape).Idx → EReal) (w : (⟨2, ![256, 256]⟩ : Shape).Idx → EReal)
    (b : Fin 4) (n : Fin 4096) (e : Fin 256) :
    G x w (ix3 b n e) = ∑ m : Fin 4096, Ideal.logistic (score x w b n m) * x (ix3 b m e) := rfl

/-- A sum over 4096 terms is the sum over the first 2048 plus the sum over the last 2048. -/
theorem sum_halves {M : Type*} [AddCommMonoid M] (f : Fin 4096 → M) :
    ∑ m : Fin 4096, f m
      = ∑ j : Fin 2048, f ⟨j.val, by omega⟩ + ∑ j : Fin 2048, f ⟨2048 + j.val, by omega⟩ :=
  Fin.sum_univ_add (M := M) (a := 2048) (b := 2048) f

/-- A real number minus itself is zero. -/
theorem real_sub_self {a : EReal} (h : ∃ r : ℝ, a = (r : EReal)) : a - a = 0 := by
  obtain ⟨r, rfl⟩ := h
  rw [← EReal.coe_sub, sub_self, EReal.coe_zero]

/-- A product of two real numbers is a real number. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- A finite sum of real numbers is a real number. -/
theorem real_sum {ι : Type*} (s : Finset ι) (f : ι → EReal) (h : ∀ k, ∃ r : ℝ, f k = (r : EReal)) :
    ∃ r : ℝ, ∑ k ∈ s, f k = (r : EReal) := by
  classical
  induction s using Finset.induction_on with
  | empty => exact ⟨0, by rw [Finset.sum_empty, EReal.coe_zero]⟩
  | insert a s ha ih =>
    obtain ⟨r, hr⟩ := ih
    obtain ⟨t, ht⟩ := h a
    exact ⟨t + r, by rw [Finset.sum_insert ha, hr, ht, EReal.coe_add]⟩

/-- A sum of products of real numbers is a real number. -/
theorem real_sum_mul {ι : Type*} [Fintype ι] (f g : ι → EReal) (hf : ∀ k, ∃ r : ℝ, f k = (r : EReal))
    (hg : ∀ k, ∃ r : ℝ, g k = (r : EReal)) : ∃ r : ℝ, ∑ k, f k * g k = (r : EReal) :=
  real_sum _ _ fun k => real_mul (hf k) (hg k)

/-- The three-pass product of real-valued operands is the plain product: each residue a − a is zero. -/
theorem three_pass {ι : Type*} [Fintype ι] (f g : ι → EReal) (hf : ∀ k, ∃ r : ℝ, f k = (r : EReal))
    (hg : ∀ k, ∃ r : ℝ, g k = (r : EReal)) :
    ∑ k, f k * g k + ∑ k, f k * (g k - g k) + ∑ k, (f k - f k) * g k = ∑ k, f k * g k := by
  have h1 : ∑ k, f k * (g k - g k) = 0 :=
    Finset.sum_eq_zero fun k _ => by rw [real_sub_self (hg k), mul_zero]
  have h2 : ∑ k, (f k - f k) * g k = 0 :=
    Finset.sum_eq_zero fun k _ => by rw [real_sub_self (hf k), zero_mul]
  rw [h1, h2, add_zero, add_zero]

end Cert.Attn

end
-- ==== Proof.AttnThreePass.lean ====
/-
  The three-pass matrix product read at an index, at the ideal (extended real) values.

  A product written as three passes over the high and low parts of its operands,

      hi(a)·hi(b) + hi(a)·lo(b) + lo(a)·hi(b),     hi(a) = a in the narrow format,   lo(a) = a − hi(a),

  has, at the ideal values where a change of format is the identity, lo(a) = a − a entry by entry. When every
  entry of a and of b is a real number that residue is zero, the second and third passes vanish, and entry (e, o)
  is the plain product's: the sum over r of a (e, r) * b (r, o), or of a (e, r) * b (o, r) when the right operand is
  contracted along its second axis. (For an infinite entry a − a is not zero on the extended reals: the hypothesis
  is needed.)

  * threePassNN — the plain orientation, [M, K] against [K, N];
  * threePassNT — the right operand transposed, [M, K] against [N, K].
-/
import Idealize.ShloMosaic.PureOps.Ideal.Laws
import Idealize.ShloMosaic.Lib.Pipeline.Value
import Idealize.ShloMosaic.Lib.ValueIdx
import proofs.«171016_j54803782697259_2_alg».proof.Proof.LibRowReduceProducts
import proofs.«171016_j54803782697259_2_alg».proof.Proof.AttnSpec

noncomputable section

open scoped BigOperators

namespace Cert.Attn

open Idealize.ShloMosaic Idealize.ShloMosaic.ValueIdx

variable {K M N : ℕ}

/-- The three-pass product of two real-valued arrays, plain orientation, at entry (e, o). -/
theorem threePassNN (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (hbits : FTy.bits .bf16 < FTy.bits .f32)
    (a : FVec Ideal ⟨2, ![M, K]⟩ .f32) (b : FVec Ideal ⟨2, ![K, N]⟩ .f32)
    (ha : ∀ j, ∃ r : ℝ, a j = (r : EReal)) (hb : ∀ j, ∃ r : ℝ, b j = (r : EReal)) (e : Fin M) (o : Fin N) :
    addf (addf
        (matmul D none (truncf .bf16 a hbits) (truncf .bf16 b hbits) (constant (F := Ideal) ⟨2, ![M, N]⟩ .f32 0x00000000#32))
        (matmul D none (truncf .bf16 a hbits) (truncf .bf16 (subf b b) hbits)
          (constant (F := Ideal) ⟨2, ![M, N]⟩ .f32 0x00000000#32)))
      (matmul D none (truncf .bf16 (subf a a) hbits) (truncf .bf16 b hbits)
        (constant (F := Ideal) ⟨2, ![M, N]⟩ .f32 0x00000000#32)) (ix2 e o)
      = ∑ r : Fin K, a (ix2 e r) * b (ix2 r o) := by
  refine Eq.trans ?_ (three_pass (fun r => a (ix2 e r)) (fun r => b (ix2 r o)) (fun r => ha _) (fun r => hb _))
  exact congrArg₂ (· + ·)
    (congrArg₂ (· + ·)
      (Cert.LibRowReduceProducts.matmulNN D hlc hrc hln hrn hlb hrb none (truncf .bf16 a hbits) (truncf .bf16 b hbits) e o)
      (Cert.LibRowReduceProducts.matmulNN D hlc hrc hln hrn hlb hrb none (truncf .bf16 a hbits)
        (truncf .bf16 (subf b b) hbits) e o))
    (Cert.LibRowReduceProducts.matmulNN D hlc hrc hln hrn hlb hrb none (truncf .bf16 (subf a a) hbits)
      (truncf .bf16 b hbits) e o)

/-- The three-pass product of two real-valued arrays, the right operand contracted along its second axis, at
    entry (e, o). -/
theorem threePassNT (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (hbits : FTy.bits .bf16 < FTy.bits .f32)
    (a : FVec Ideal ⟨2, ![M, K]⟩ .f32) (b : FVec Ideal ⟨2, ![N, K]⟩ .f32)
    (ha : ∀ j, ∃ r : ℝ, a j = (r : EReal)) (hb : ∀ j, ∃ r : ℝ, b j = (r : EReal)) (e : Fin M) (o : Fin N) :
    addf (addf
        (matmul D none (truncf .bf16 a hbits) (truncf .bf16 b hbits) (constant (F := Ideal) ⟨2, ![M, N]⟩ .f32 0x00000000#32))
        (matmul D none (truncf .bf16 a hbits) (truncf .bf16 (subf b b) hbits)
          (constant (F := Ideal) ⟨2, ![M, N]⟩ .f32 0x00000000#32)))
      (matmul D none (truncf .bf16 (subf a a) hbits) (truncf .bf16 b hbits)
        (constant (F := Ideal) ⟨2, ![M, N]⟩ .f32 0x00000000#32)) (ix2 e o)
      = ∑ r : Fin K, a (ix2 e r) * b (ix2 o r) := by
  refine Eq.trans ?_ (three_pass (fun r => a (ix2 e r)) (fun r => b (ix2 o r)) (fun r => ha _) (fun r => hb _))
  exact congrArg₂ (· + ·)
    (congrArg₂ (· + ·)
      (Cert.LibRowReduceProducts.matmulNT D hlc hrc hln hrn hlb hrb none (truncf .bf16 a hbits) (truncf .bf16 b hbits) e o)
      (Cert.LibRowReduceProducts.matmulNT D hlc hrc hln hrn hlb hrb none (truncf .bf16 a hbits)
        (truncf .bf16 (subf b b) hbits) e o))
    (Cert.LibRowReduceProducts.matmulNT D hlc hrc hln hrn hlb hrb none (truncf .bf16 (subf a a) hbits)
      (truncf .bf16 b hbits) e o)

end Cert.Attn

end
-- ==== Proof.LibLogisticGate.lean ====
/-
  The logistic gate on the extended reals.

  At the exact instance a float is an extended real and the logistic function is
  `logistic s = 1 / (1 + e^(-s))`, with `logistic ⊥ = 0` and `logistic ⊤ = 1`. Whatever `s` is — a
  real number or an infinity — its value lies in the interval `[0, 1]`: it is nonnegative and it is
  never `⊤`. Multiplication by such a factor distributes over EVERY sum of extended reals, the sums
  that meet an infinity included: `σ * (a + b) = σ * a + σ * b`. So a cell that gates a sum,
  `σ * (c + t)`, and a cell that gates the two summands with the same gate and then adds,
  `σ * c + σ * t`, hold the same extended real, with no finiteness assumed of `c`, `t` or `s`.

  The module also reads the expansion `1 / (1 + exp (-s))` written with the f32 word of the number
  one (`0x3F800000`) as that same logistic function, vector by vector: a program that spells the
  gate by negate, exponential, add and divide computes `logistic` at every index.

  Nothing here mentions a particular program: the shapes and the arrays are arbitrary.
-/
import Mathlib.Data.EReal.Operations
import Idealize.ShloMosaic.PureOps.Ideal
import Idealize.ShloMosaic.Lib.IdealHost

noncomputable section

namespace LogisticGate

open Idealize.ShloMosaic

/-- The logistic of an extended real is nonnegative: `0` at `⊥`, `1` at `⊤`, and the inverse of the
    positive real `1 + e^(-r)` at a real `r`. -/
theorem logistic_nonneg (s : EReal) : 0 ≤ Ideal.logistic s := by
  induction s using EReal.rec with
  | bot => rw [Ideal.logistic_bot]
  | coe r =>
    rw [Ideal.logistic_coe]
    have h : (0 : ℝ) ≤ (1 + Real.exp (-r))⁻¹ := (inv_pos.2 (by positivity)).le
    exact_mod_cast h
  | top => rw [Ideal.logistic_top]; exact zero_le_one

/-- The logistic of an extended real is never `⊤`: its values are `0`, `1` and real numbers. -/
theorem logistic_ne_top (s : EReal) : Ideal.logistic s ≠ ⊤ := by
  induction s using EReal.rec with
  | bot => rw [Ideal.logistic_bot]; exact EReal.zero_ne_top
  | coe r => rw [Ideal.logistic_coe]; exact EReal.coe_ne_top _
  | top => rw [Ideal.logistic_top, ← EReal.coe_one]; exact EReal.coe_ne_top _

/-- A logistic gate distributes over a sum of extended reals, infinities included: the factor is
    nonnegative and not `⊤`, which is all that distributivity on the extended reals asks of it. -/
theorem logistic_mul_add (s a b : EReal) :
    Ideal.logistic s * (a + b) = Ideal.logistic s * a + Ideal.logistic s * b :=
  EReal.left_distrib_of_nonneg_of_ne_top (logistic_nonneg s) (logistic_ne_top s) a b

/-- The expansion `1 / (1 + exp (-s))`, both ones the f32 word `0x3F800000`, is the logistic of `s`:
    the word is the number one, and the quotient is the definition of the logistic function. -/
theorem one_div_one_add_exp_neg (s : EReal) :
    Ideal.div (Ideal.ofBits .f32 0x3F800000#32) (Ideal.ofBits .f32 0x3F800000#32 + Ideal.exp (-s))
      = Ideal.logistic s := by
  rw [Ideal.ofBits_one_f32]; rfl

end LogisticGate

end
-- ==== Proof.AttnPayloads.lean ====
/-
  The four values the kernel body stores, read at an index at the ideal (extended real) values.

  One grid point of the kernel works on a block of 1024 query rows (xq), a block of 2048 key rows (xk) and the
  whole weight matrix (w). It stores:

    * the query block      q (r, e) = ∑ k, xq (r, k) * w (k, e)                          (first key block only);
    * a zero accumulator                                                                  (first key block only);
    * the new accumulator  acc (r, e) + ∑ j, logistic (∑ d, q (r, d) * xk (j, d)) * xk (j, e);
    * the accumulator, as the output block                                                (last key block only).

  Every matrix product in the body is a three-pass product (Cert.Attn.threePassNN / threePassNT), so each reading
  needs the operands' entries to be real numbers: the inputs' by hypothesis, the query block's because it is a finite
  sum of products of reals, the gate's because a logistic value lies in [0, 1].

  tile_eq joins the two key blocks of one batch: the accumulator after both, started from zero, is the
  specification G at the block's rows — the sum over 4096 key rows is the sum over the first 2048 plus the sum over
  the last 2048.
-/
import proofs.«171016_j54803782697259_2_alg».proof.Proof.Gen.KernelIdeal.Skeleton
import proofs.«171016_j54803782697259_2_alg».proof.Proof.AttnThreePass
import proofs.«171016_j54803782697259_2_alg».proof.Proof.LibLogisticGate
import Idealize.ShloMosaic.Lib.ValueLayout

noncomputable section

open scoped BigOperators

namespace Cert.Attn

open Idealize.ShloMosaic Idealize.ShloMosaic.ValueIdx
open Cert.KernelIdeal (S4x4096x256 S256x256 S1x1024x256 S1x2048x256 S1024x256 S2048x256 S1024x2048)

variable [Cert.KernelIdeal.Facts]

/-- A logistic value is a real number: it lies in [0, 1]. -/
theorem logistic_real (s : EReal) : ∃ r : ℝ, Ideal.logistic s = (r : EReal) :=
  ⟨(Ideal.logistic s).toReal, (EReal.coe_toReal (LogisticGate.logistic_ne_top s)
    (ne_of_gt (lt_of_lt_of_le EReal.bot_lt_zero (LogisticGate.logistic_nonneg s)))).symm⟩

/-- An index of a [1, a, b] array has first coordinate 0. -/
theorem eq_ix3_unit {a b : ℕ} (j : (⟨3, ![1, a, b]⟩ : Shape).Idx) : j = ix3 (0 : Fin 1) (j 1) (j 2) := by
  funext d
  match d with
  | ⟨0, _⟩ => exact Subsingleton.elim (α := Fin 1) _ _
  | ⟨1, _⟩ => rfl
  | ⟨2, _⟩ => rfl

/-- The output block is the accumulator with a unit axis in front. -/
theorem pay1_apply (acc : Vec Ideal S1024x256 .f32) (r : Fin 1024) (e : Fin 256) :
    Cert.KernelIdeal.Gen.k0_pay1 (F := Ideal) acc (ix3 (0 : Fin 1) r e) = acc (ix2 r e) :=
  shapeCast_ab_1ab_apply acc _ 0 r e

/-- The fresh accumulator is zero everywhere. -/
theorem pay3_apply (j : S1024x256.Idx) : Cert.KernelIdeal.Gen.k0_pay3 (F := Ideal) j = 0 := by
  unfold Cert.KernelIdeal.Gen.k0_pay3
  rw [shapeCast_self]
  exact Ideal.ofBits_zero_f32

/-- The query block: the three-pass product of the query rows with the weight matrix is the plain product. -/
theorem pay2_apply (xq : Vec Ideal S1x1024x256 .f32) (w : Vec Ideal S256x256 .f32)
    (hx : ∀ j, ∃ t : ℝ, xq j = (t : EReal)) (hw : ∀ j, ∃ t : ℝ, w j = (t : EReal)) (r : Fin 1024) (e : Fin 256) :
    Cert.KernelIdeal.Gen.k0_pay2 (F := Ideal) xq w (ix2 r e) = ∑ k : Fin 256, xq (ix3 (0 : Fin 1) r k) * w (ix2 k e) := by
  unfold Cert.KernelIdeal.Gen.k0_pay2
  rw [shapeCast_self]
  refine (threePassNN _ rfl rfl rfl rfl rfl rfl _ (shapeCast S1024x256 xq _) w ?_ hw r e).trans ?_
  · intro j
    obtain ⟨p, q, rfl⟩ : ∃ (p : Fin 1024) (q : Fin 256), j = ix2 p q := ⟨j 0, j 1, eq_ix2 j⟩
    rw [shapeCast_1ab_ab_apply]
    exact hx _
  · exact Finset.sum_congr rfl fun k _ => by rw [shapeCast_1ab_ab_apply]

/-- Every entry of the query block is a real number. -/
theorem pay2_real (xq : Vec Ideal S1x1024x256 .f32) (w : Vec Ideal S256x256 .f32)
    (hx : ∀ j, ∃ t : ℝ, xq j = (t : EReal)) (hw : ∀ j, ∃ t : ℝ, w j = (t : EReal)) (j : S1024x256.Idx) :
    ∃ t : ℝ, Cert.KernelIdeal.Gen.k0_pay2 (F := Ideal) xq w j = (t : EReal) := by
  obtain ⟨p, q, rfl⟩ : ∃ (p : Fin 1024) (q : Fin 256), j = ix2 p q := ⟨j 0, j 1, eq_ix2 j⟩
  rw [pay2_apply xq w hx hw]
  exact real_sum_mul _ _ (fun k => hx _) (fun k => hw _)

/-- The new accumulator: the old one plus, over the 2048 key rows of the block, the gate of the score times the
    key row's entry. -/
theorem pay4_apply (xk : Vec Ideal S1x2048x256 .f32) (q acc : Vec Ideal S1024x256 .f32)
    (hx : ∀ j, ∃ t : ℝ, xk j = (t : EReal)) (hq : ∀ j, ∃ t : ℝ, q j = (t : EReal)) (r : Fin 1024) (e : Fin 256) :
    Cert.KernelIdeal.Gen.k0_pay4 (F := Ideal) xk q acc (ix2 r e)
      = acc (ix2 r e) + ∑ j : Fin 2048,
          Ideal.logistic (∑ d : Fin 256, q (ix2 r d) * xk (ix3 (0 : Fin 1) j d)) * xk (ix3 (0 : Fin 1) j e) := by
  unfold Cert.KernelIdeal.Gen.k0_pay4
  rw [shapeCast_self]
  refine (addf_apply _ _ _).trans (congrArg (acc (ix2 r e) + ·) ?_)
  have hk : ∀ j, ∃ t : ℝ, shapeCast S2048x256 xk Cert.KernelIdeal.Gen.shapeCasts_S1x2048x256_S2048x256 j = (t : EReal) := by
    intro j
    obtain ⟨p, q, rfl⟩ : ∃ (p : Fin 2048) (q : Fin 256), j = ix2 p q := ⟨j 0, j 1, eq_ix2 j⟩
    rw [shapeCast_1ab_ab_apply]
    exact hx _
  refine (threePassNN _ rfl rfl rfl rfl rfl rfl _ (logistic _) (shapeCast S2048x256 xk _)
    (fun j => logistic_real _) hk r e).trans ?_
  refine Finset.sum_congr rfl fun j _ => ?_
  rw [shapeCast_1ab_ab_apply]
  refine congrArg (fun z => Ideal.logistic z * xk (ix3 (0 : Fin 1) j e)) ?_
  refine (threePassNT _ rfl rfl rfl rfl rfl rfl _ q (shapeCast S2048x256 xk _) hq hk r j).trans ?_
  exact Finset.sum_congr rfl fun d _ => by rw [shapeCast_1ab_ab_apply]

/-- One batch's query block against both key blocks: the accumulator started from zero and advanced over the first
    2048 key rows, then over the last 2048, is the specification at the block's rows. -/
theorem tile_eq (x : FVec Ideal S4x4096x256 .f32) (w : FVec Ideal S256x256 .f32)
    (hx : ∀ j, ∃ t : ℝ, x j = (t : EReal)) (hw : ∀ j, ∃ t : ℝ, w j = (t : EReal)) (b qi : Fin 4)
    (xq : Vec Ideal S1x1024x256 .f32) (xk0 xk1 : Vec Ideal S1x2048x256 .f32) (wb : Vec Ideal S256x256 .f32)
    (hq : ∀ (r : Fin 1024) (d : Fin 256),
      xq (ix3 (0 : Fin 1) r d) = x (ix3 b (⟨qi.val * 1024 + r.val, by omega⟩ : Fin 4096) d))
    (hk0 : ∀ (j : Fin 2048) (d : Fin 256), xk0 (ix3 (0 : Fin 1) j d) = x (ix3 b (⟨j.val, by omega⟩ : Fin 4096) d))
    (hk1 : ∀ (j : Fin 2048) (d : Fin 256),
      xk1 (ix3 (0 : Fin 1) j d) = x (ix3 b (⟨2048 + j.val, by omega⟩ : Fin 4096) d))
    (hwb : wb = w) (r : Fin 1024) (e : Fin 256) :
    Cert.KernelIdeal.Gen.k0_pay1 (F := Ideal)
        (Cert.KernelIdeal.Gen.k0_pay4 xk1 (Cert.KernelIdeal.Gen.k0_pay2 xq wb)
          (Cert.KernelIdeal.Gen.k0_pay4 xk0 (Cert.KernelIdeal.Gen.k0_pay2 xq wb) (Cert.KernelIdeal.Gen.k0_pay3 (F := Ideal))))
        (ix3 (0 : Fin 1) r e)
      = G x w (ix3 b (⟨qi.val * 1024 + r.val, by omega⟩ : Fin 4096) e) := by
  subst hwb
  have hxq : ∀ j, ∃ t : ℝ, xq j = (t : EReal) := fun j => by
    obtain ⟨p, q, rfl⟩ : ∃ (p : Fin 1024) (q : Fin 256), j = ix3 (0 : Fin 1) p q := ⟨j 1, j 2, eq_ix3_unit j⟩
    rw [hq]; exact hx _
  have hxk0 : ∀ j, ∃ t : ℝ, xk0 j = (t : EReal) := fun j => by
    obtain ⟨p, q, rfl⟩ : ∃ (p : Fin 2048) (q : Fin 256), j = ix3 (0 : Fin 1) p q := ⟨j 1, j 2, eq_ix3_unit j⟩
    rw [hk0]; exact hx _
  have hxk1 : ∀ j, ∃ t : ℝ, xk1 j = (t : EReal) := fun j => by
    obtain ⟨p, q, rfl⟩ : ∃ (p : Fin 2048) (q : Fin 256), j = ix3 (0 : Fin 1) p q := ⟨j 1, j 2, eq_ix3_unit j⟩
    rw [hk1]; exact hx _
  rw [pay1_apply, pay4_apply xk1 _ _ hxk1 (pay2_real xq wb hxq hw), pay4_apply xk0 _ _ hxk0 (pay2_real xq wb hxq hw),
    pay3_apply, zero_add, G_apply, sum_halves]
  refine congrArg₂ (· + ·) (Finset.sum_congr rfl fun j _ => ?_) (Finset.sum_congr rfl fun j _ => ?_)
  · simp only [hk0, pay2_apply xq wb hxq hw, hq, score, query]
  · simp only [hk1, pay2_apply xq wb hxq hw, hq, score, query]

end Cert.Attn

end
-- ==== Proof.FrameValue.lean ====
/-
  The output array of the idealized attention kernel, read off its run. Point t = (b·4 + qi)·2 + ki of the grid reads
  rows [qi·1024, qi·1024 + 1024) of batch b through the query window, rows [ki·2048, ki·2048 + 2048) of batch b
  through the key window and the whole weight matrix, and an odd point writes back rows [qi·1024, …) of batch b of
  the result. What it writes is the accumulator of its pair of points: by the payload algebra, block (b, qi) of the
  specification `Cert.Attn.G`. The sixteen odd points' blocks cover the result array.
-/
import proofs.«171016_j54803782697259_2_alg».proof.Proof.FrameLaunch
import proofs.«171016_j54803782697259_2_alg».proof.Proof.AttnPayloads
import Idealize.ShloMosaic.Lib.Pipeline.Value

set_option maxRecDepth 16384

noncomputable section

namespace Cert.KernelIdeal.RunValue

open Cert.KernelIdeal Cert.KernelIdeal.Gen Cert.KernelIdeal.Run
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem N_lt (t : Fin cfg0.N) : t.val < 32 := lt_of_lt_of_eq t.isLt (show cfg0.N = 32 from N_0)

/-- The printed index maps over the grid: batch t / 8, query tile (t / 2) mod 4, key tile t mod 2. -/
theorem idx_facts : ∀ t : Fin cfg0.N,
    win0_0.index t (0 : Fin 3) = t.val / 8 ∧ win0_0.index t (1 : Fin 3) = t.val / 2 % 4 ∧ win0_0.index t (2 : Fin 3) = 0
    ∧ win0_1.index t (0 : Fin 3) = t.val / 8 ∧ win0_1.index t (1 : Fin 3) = t.val % 2 ∧ win0_1.index t (2 : Fin 3) = 0
    ∧ win0_2.index t (0 : Fin 2) = 0 ∧ win0_2.index t (1 : Fin 2) = 0
    ∧ win0_3.index t (0 : Fin 3) = t.val / 8 ∧ win0_3.index t (1 : Fin 3) = t.val / 2 % 4 ∧ win0_3.index t (2 : Fin 3) = 0 :=
  (by decide +kernel : ∀ t : Fin grid0.N, _)

/-- The query window's block at a point, entry by entry. -/
theorem iblk0_apply (c : Dev nD) (t : Fin cfg0.N) (b : Fin 4) (hb : b.val = t.val / 8) (qi : Fin 4) (hqi : qi.val = t.val / 2 % 4)
    (r : Fin 1024) (d : Fin 256) (row : Fin 4096) (hrow : row.val = qi.val * 1024 + r.val) :
    iblk m c 0 t (ix3 (0 : Fin 1) r d) = m ((c : Thread nD τ).loc main_arg0) (ix3 b row d) := by
  obtain ⟨e0, e1, e2, -⟩ := idx_facts t
  show V m c main_arg0 (((cfg0.win 0).blk t).view.emb (ix3 (0 : Fin 1) r d)) = _
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * r.val = row.val; omega
  | ⟨2, _⟩ => show win0_0.index t (2 : Fin 3) * 256 + 1 * d.val = d.val; omega

/-- The key window's block at a point, entry by entry. -/
theorem iblk1_apply (c : Dev nD) (t : Fin cfg0.N) (b : Fin 4) (hb : b.val = t.val / 8)
    (j : Fin 2048) (d : Fin 256) (row : Fin 4096) (hrow : row.val = t.val % 2 * 2048 + j.val) :
    iblk m c 1 t (ix3 (0 : Fin 1) j d) = m ((c : Thread nD τ).loc main_arg0) (ix3 b row d) := by
  obtain ⟨-, -, -, e0, e1, e2, -⟩ := idx_facts t
  show V m c main_arg0 (((cfg0.win 1).blk t).view.emb (ix3 (0 : Fin 1) j d)) = _
  refine congrArg _ (funext fun a => Fin.ext ?_)
  match a with
  | ⟨0, _⟩ => show win0_1.index t (0 : Fin 3) * 1 + 1 * 0 = b.val; omega
  | ⟨1, _⟩ => show win0_1.index t (1 : Fin 3) * 2048 + 1 * j.val = row.val; omega
  | ⟨2, _⟩ => show win0_1.index t (2 : Fin 3) * 256 + 1 * d.val = d.val; omega

/-- The weight window's block is the whole weight matrix at every point. -/
theorem iblk2_eq (c : Dev nD) (t : Fin cfg0.N) :
    (iblk m c 2 t : Vec Ideal S256x256 .f32) = m ((c : Thread nD τ).loc main_arg1) := by
  obtain ⟨-, -, -, -, -, -, e0, e1, -⟩ := idx_facts t
  funext j
  show V m c main_arg1 (((cfg0.win 2).blk t).view.emb j) = _
  refine congrArg _ (funext fun a => Fin.ext ?_)
  match a with
  | ⟨0, _⟩ => show win0_2.index t (0 : Fin 2) * 256 + 1 * (j 0).val = (j 0).val; omega
  | ⟨1, _⟩ => show win0_2.index t (1 : Fin 2) * 256 + 1 * (j 1).val = (j 1).val; omega

/-! ## What an odd point writes back -/

/-- WHAT POINT `t` WRITES BACK (an odd point: the end of a pair) is block `t` of the specification of the argument
    arrays, when those hold real numbers: the accumulator of the pair is the sum over both key tiles. -/
theorem flushed_eq (c : Dev nD)
    (hx : ∀ j, ∃ r : ℝ, m ((c : Thread nD τ).loc main_arg0) j = (r : EReal))
    (hw : ∀ j, ∃ r : ℝ, m ((c : Thread nD τ).loc main_arg1) j = (r : EReal))
    (t : Fin cfg0.N) (hf : (cfg0.win 3).flush t = true) :
    (dats m 0 c).flushed 3 t = ((cfg0.win 3).blk t).view.read (Elt Ideal)
      (Cert.Attn.G (m ((c : Thread nD τ).loc main_arg0)) (m ((c : Thread nD τ).loc main_arg1))) := by
  have ht : t.val % 2 = 1 := (flush0_3 t).mp hf
  have hN := N_lt t
  obtain ⟨-, -, -, -, -, -, -, -, e0, e1, e2⟩ := idx_facts t
  have hp : (⟨t.val - 1, Nat.lt_of_le_of_lt (Nat.sub_le _ _) t.isLt⟩ : Fin cfg0.N).val % 2 = 0 := by
    show (t.val - 1) % 2 = 0; omega
  show (cfg0.win 3).cut (grid0.coords t) ((dats m 0 c).after 3 t) = _
  rw [after_3]
  funext j
  obtain ⟨r, e, rfl⟩ : ∃ (r : Fin 1024) (e : Fin 256), j = ix3 (0 : Fin 1) r e := ⟨j 1, j 2, Cert.Attn.eq_ix3_unit j⟩
  show outAt m c t (ix3 (0 : Fin 1) r e)
    = Cert.Attn.G (m ((c : Thread nD τ).loc main_arg0)) (m ((c : Thread nD τ).loc main_arg1)) (((cfg0.win 3).blk t).view.emb (ix3 (0 : Fin 1) r e))
  unfold outAt
  rw [accAt_odd m c t ht, accAt_even m c _ hp, qAt_even m c _ hp]
  refine (Cert.Attn.tile_eq (m ((c : Thread nD τ).loc main_arg0)) (m ((c : Thread nD τ).loc main_arg1)) hx hw
    (⟨t.val / 8, by omega⟩ : Fin 4) (⟨t.val / 2 % 4, by omega⟩ : Fin 4) _ _ _ _
    (fun r d => iblk0_apply m c _ _ (by show t.val / 8 = (t.val - 1) / 8; omega) _ (by show t.val / 2 % 4 = (t.val - 1) / 2 % 4; omega) r d _ rfl)
    (fun j d => iblk1_apply m c _ _ (by show t.val / 8 = (t.val - 1) / 8; omega) j d _ (by show j.val = (t.val - 1) % 2 * 2048 + j.val; omega))
    (fun j d => iblk1_apply m c t _ rfl j d _ (by show 2048 + j.val = t.val % 2 * 2048 + j.val; omega))
    (iblk2_eq m c _) r e).trans ?_
  refine congrArg _ (funext fun a => Fin.ext ?_)
  match a with
  | ⟨0, _⟩ => show t.val / 8 = win0_3.index t (0 : Fin 3) * 1 + 1 * 0; omega
  | ⟨1, _⟩ => show t.val / 2 % 4 * 1024 + r.val = win0_3.index t (1 : Fin 3) * 1024 + 1 * r.val; omega
  | ⟨2, _⟩ => show e.val = win0_3.index t (2 : Fin 3) * 256 + 1 * e.val; omega

/-! ## The odd points' blocks cover the result -/

theorem mem_blk3 (t : Fin cfg0.N) (i : S4x4096x256.Idx) :
    i ∈ ((cfg0.win 3).blk t).view.set ↔ ∀ a : Fin 3, win0_3.index t a * S1x1024x256.size a ≤ (i a).val
      ∧ (i a).val < win0_3.index t a * S1x1024x256.size a + S1x1024x256.size a := by
  show i ∈ ((View.whole main_v0).slice (win0_3.rect t)).set ↔ _
  rw [View.set_slice_whole, Rect.mem_set_unit]
  exact Iff.rfl

/-- Row n of batch b lies in the block written back at the odd point of the pair (b, n / 1024). -/
theorem cover3 (i : S4x4096x256.Idx) : ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 256 := (i 2).isLt
  let t : Fin cfg0.N := ⟨((i 0).val * 4 + (i 1).val / 1024) * 2 + 1, by rw [show cfg0.N = 32 from N_0]; omega⟩
  have htv : t.val = ((i 0).val * 4 + (i 1).val / 1024) * 2 + 1 := rfl
  obtain ⟨-, -, -, -, -, -, -, -, e0, e1, e2⟩ := idx_facts t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 256 ≤ (i 2).val ∧ (i 2).val < win0_3.index t (2 : Fin 3) * 256 + 256; omega

/-- THE RESULT ARRAY after the run is the specification of the argument arrays. -/
theorem final3 (c : Dev nD)
    (hx : ∀ j, ∃ r : ℝ, m ((c : Thread nD τ).loc main_arg0) j = (r : EReal))
    (hw : ∀ j, ∃ r : ℝ, m ((c : Thread nD τ).loc main_arg1) j = (r : EReal)) :
    (dats m 0 c).arrAt 3 cfg0.N = Cert.Attn.G (m ((c : Thread nD τ).loc main_arg0)) (m ((c : Thread nD τ).loc main_arg1)) :=
  (dats m 0 c).arrAt_eq_of_cover 3 _ (fun t hf => flushed_eq m c hx hw t hf) cover3

end Cert.KernelIdeal.RunValue

end
-- ==== Proof.AttnReference.lean ====
/-
  The reference program computes the specification.

  The reference is three contractions with a gate between the second and the third:

    query = x · w                       (contract the last axis of x with the first of w),
    att   = 1 / (1 + exp (−(query · xᵀ)))   per batch (contract the last axes; the ones are the f32 word of 1),
    value = att · x                     per batch (contract att's last axis with x's row axis).

  Read at an index (b, n, e), the outer contraction is a sum over the key rows m of att (b, n, m) * x (b, m, e); the
  gate spelt by negate, exponential, add and divide is the logistic function; its argument is the sum over d of
  query (b, n, d) * x (b, m, d); and the query entry is the sum over k of x (b, n, k) * w (k, d). That is G, term by
  term: only the operand indices of the three contractions have to be identified with indices written by their
  coordinates. No finiteness is used.
-/
import proofs.«171016_j54803782697259_2_alg».proof.Proof.Gen.ReferenceIdeal.Read
import proofs.«171016_j54803782697259_2_alg».proof.Proof.AttnSpec
import proofs.«171016_j54803782697259_2_alg».proof.Proof.LibLogisticGate

noncomputable section

open scoped BigOperators

namespace Cert.Attn

open Idealize.ShloMosaic Idealize.ShloMosaic.ValueIdx
open Cert.ReferenceIdeal (S4x4096x256 S256x256 S4x4096x4096 S_)
open Cert.ReferenceIdeal.Read

/-! ## The operand indices of the three contractions, by coordinates -/

theorem lidx8 (b : Fin 4) (n : Fin 4096) (e : Fin 256) (m : Fin 4096) :
    lidx_main_v8 (ix3 b n e) m = (ix3 b n m : S4x4096x4096.Idx) :=
  funext fun a => Fin.ext (by match a with | ⟨0, _⟩ => rfl | ⟨1, _⟩ => rfl | ⟨2, _⟩ => rfl)

theorem ridx8 (b : Fin 4) (n : Fin 4096) (e : Fin 256) (m : Fin 4096) :
    ridx_main_v8 (ix3 b n e) m = (ix3 b m e : S4x4096x256.Idx) :=
  funext fun a => Fin.ext (by match a with | ⟨0, _⟩ => rfl | ⟨1, _⟩ => rfl | ⟨2, _⟩ => rfl)

theorem lidx1 (b : Fin 4) (n m : Fin 4096) (d : Fin 256) :
    lidx_main_v1 (ix3 b n m) d = (ix3 b n d : S4x4096x256.Idx) :=
  funext fun a => Fin.ext (by match a with | ⟨0, _⟩ => rfl | ⟨1, _⟩ => rfl | ⟨2, _⟩ => rfl)

theorem ridx1 (b : Fin 4) (n m : Fin 4096) (d : Fin 256) :
    ridx_main_v1 (ix3 b n m) d = (ix3 b m d : S4x4096x256.Idx) :=
  funext fun a => Fin.ext (by match a with | ⟨0, _⟩ => rfl | ⟨1, _⟩ => rfl | ⟨2, _⟩ => rfl)

theorem lidx0 (b : Fin 4) (n : Fin 4096) (d k : Fin 256) :
    lidx_main_v0 (ix3 b n d) k = (ix3 b n k : S4x4096x256.Idx) :=
  funext fun a => Fin.ext (by match a with | ⟨0, _⟩ => rfl | ⟨1, _⟩ => rfl | ⟨2, _⟩ => rfl)

theorem ridx0 (b : Fin 4) (n : Fin 4096) (d k : Fin 256) :
    ridx_main_v0 (ix3 b n d) k = (ix2 k d : S256x256.Idx) :=
  funext fun a => Fin.ext (by match a with | ⟨0, _⟩ => rfl | ⟨1, _⟩ => rfl)

/-! ## The reference's last stage is the specification -/

/-- The value the reference's last operation writes is G of the two arguments. -/
theorem ref_val_eq (x : FVec Ideal S4x4096x256 .f32) (w : FVec Ideal S256x256 .f32) :
    val_main_v8 (F := Ideal) x w = G x w := by
  funext i
  obtain ⟨b, n, e, rfl⟩ : ∃ (b : Fin 4) (n : Fin 4096) (e : Fin 256), i = ix3 b n e := ⟨i 0, i 1, i 2, eq_ix3 i⟩
  rw [val_main_v8_apply, G_apply]
  refine Finset.sum_congr rfl fun m _ => ?_
  rw [lidx8, ridx8, val_main_v7_apply, val_main_v6_apply, val_main_cst_0_apply, val_main_v5_apply, val_main_v4_apply,
    val_main_cst_apply, val_main_v3_apply, val_main_v2_apply, val_main_v1_apply]
  simp only [Ideal.hostDivf_def, Ideal.addf_def, Ideal.hostUnary_exp_def, Ideal.hostNegf_def, Ideal.negf_def,
    Ideal.ofBits_def, LogisticGate.one_div_one_add_exp_neg]
  refine congrArg (fun z => Ideal.logistic z * x (ix3 b m e)) ?_
  refine Finset.sum_congr rfl fun d _ => ?_
  rw [lidx1, ridx1, val_main_v0_apply]
  refine congrArg (· * x (ix3 b m d)) ?_
  exact Finset.sum_congr rfl fun k _ => by rw [lidx0, ridx0]

open Cert.ReferenceIdeal Cert.ReferenceIdeal.Gen in
/-- The term the reference's run ends at, over any two argument arrays, is G of them. -/
theorem ref_eq (x : FVec Ideal S4x4096x256 .f32) (w : FVec Ideal S256x256 .f32) :
    Host.dotGeneral dot_S4x4096x4096_S4x4096x256_S4x4096x256_2_1_1_2_0_0 none (Host.divf (broadcastInDim S4x4096x4096 ![] bcast_S_S4x4096x4096 (constant (F := Ideal) S_ .f32 0x3F800000#32)) (addf (broadcastInDim S4x4096x4096 ![] bcast_S_S4x4096x4096 (constant (F := Ideal) S_ .f32 0x3F800000#32)) (Host.exp (Host.negf (Host.dotGeneral dot_S4x4096x256_S4x4096x256_S4x4096x4096_2_2_1_1_0_0 none (Host.dotGeneral dot_S4x4096x256_S256x256_S4x4096x256_2_0_01_1_n_n none x w) x))))) x
      = G x w :=
  (val_main_v8_eq (F := Ideal) x w).trans (ref_val_eq x w)

end Cert.Attn

end
-- ==== Proof.LibFiniteIsReal.lean ====
import Idealize.ShloMosaic.Lib.ReduceAll
import Idealize.ShloMosaic.Lib.ValueIdx
import Idealize.ShloMosaic.PureOps.Ideal

/-
  "Every entry is finite" read over the extended reals (any shape).

  A host predicate of the form  all(|x| < +∞)  — the absolute value taken entrywise, compared strictly with the splat
  of the word 0x7F800000, the comparisons folded by `and` from `true` into a scalar — holds exactly when no entry of
  x is +∞ or −∞, so when it holds every entry of x is (the image of) a real number:

  * word_inf                 — the word 0x7F800000 denotes +∞;
  * real_of_abs_lt_inf       — max a (−a) < +∞ makes a a real number;
  * all_real_of_all_finite   — the predicate, for an array of any shape reduced over any axes to a scalar, gives a real
                               number at every index.
-/

noncomputable section

namespace Cert.LibFiniteIsReal

open Idealize.ShloMosaic

/-- The word 0x7F800000 denotes +∞. -/
theorem word_inf : Ideal.ofBits .f32 0x7F800000#32 = (⊤ : EReal) := by
  simp [Ideal.ofBits, Ideal.ieee]

/-- An extended real whose absolute value is strictly below +∞ is a real number. -/
theorem real_of_abs_lt_inf (a : EReal)
    (h : Ideal.cmp .olt (max a (-a)) (Ideal.ofBits .f32 0x7F800000#32) = 1#1) : ∃ r : ℝ, a = (r : EReal) := by
  rw [word_inf] at h
  induction a using EReal.rec with
  | bot => simp [Ideal.cmp] at h
  | coe r => exact ⟨r, rfl⟩
  | top => simp [Ideal.cmp] at h

/-- The scalar shape has one index. -/
instance : Subsingleton (⟨0, ![]⟩ : Shape).Idx := ⟨fun _ _ => funext fun d => d.elim0⟩

/-- If all(|x| < +∞) holds of an array x of any shape, every entry of x is a real number. -/
theorem all_real_of_all_finite {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr h0 ValueIdx.ix0 = 1#1) :
    ∀ j, ∃ r : ℝ, x j = (r : EReal) :=
  fun j => real_of_abs_lt_inf _ (Host.reduce_andi_all _ _ hr h0 _ e j)

end Cert.LibFiniteIsReal

end
-- ==== Proof.AttnFinite.lean ====
/-
  From the precondition to real-valued inputs.

  The precondition evaluates, on every device, the predicate

      all (|input| < +∞)  and  all (|q_weight| < +∞)

  to the one-bit word 1: the absolute value taken entry by entry, compared strictly with the f32 word of +∞, the
  comparisons folded by "and" from true over all axes, and the two folds combined by "and". A conjunction of one-bit
  words is 1 exactly when both are, and each fold is 1 exactly when no entry is +∞ or −∞, so every entry of both
  argument arrays is (the image of) a real number.
-/
import proofs.«171016_j54803782697259_2_alg».proof.Defs
import proofs.«171016_j54803782697259_2_alg».proof.Proof.LibFiniteIsReal
import Idealize.ShloMosaic.Lib.Affine

noncomputable section

namespace Cert.Attn

open Idealize.ShloMosaic Idealize.SL.Sem

/-- Under the precondition every entry of the two argument arrays is a real number, on every device. -/
theorem real_inputs [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, ∃ r : ℝ, m ((c.tc : Thread Cert.KernelIdeal.nD Cert.KernelIdeal.τ).loc Cert.KernelIdeal.main_arg0) j = (r : EReal))
    ∧ (∀ j, ∃ r : ℝ, m ((c.tc : Thread Cert.KernelIdeal.nD Cert.KernelIdeal.τ).loc Cert.KernelIdeal.main_arg1) j = (r : EReal)) := by
  have h0 := congrFun (h c) ValueIdx.ix0
  dsimp only [Cert.Pre_finite_inputs.fn] at h0
  obtain ⟨ha, hb⟩ := IntOp.andi_eq_one.1 h0
  exact ⟨Cert.LibFiniteIsReal.all_real_of_all_finite _ _ _ _ ha,
    Cert.LibFiniteIsReal.all_real_of_all_finite _ _ _ _ hb⟩

end Cert.Attn

end
-- ==== Proof.lean ====
/-
  Attention without softmax, query tiles of 1024 rows against key tiles of 2048 rows: value = sigmoid((x · W) · xᵀ) · x per
  batch, for x : [4, 4096, 256] and W : [256, 256].

  The kernel walks a 4 × 4 × 2 grid (batch, query tile, key tile). At the first key tile of a pair it projects the query
  tile, q = x_q · W, into a scratch buffer and clears an accumulator; at each key tile it adds sigmoid(q · x_kᵀ) · x_k to
  the accumulator; at the last key tile it stores the accumulator as the output block. Every matrix product is taken in
  three passes over a high and a low part of each operand, a_hi · b_hi + a_hi · b_lo + a_lo · b_hi, where a_hi is a rounded
  to the narrow format and a_lo is a − a_hi rounded again. On the extended reals rounding is the identity, so a_lo = a − a,
  which is 0 exactly when a is a real number: the inputs are real by the precondition, the projected queries are finite
  sums of products of reals, and a logistic value lies in [0, 1]. With the low parts zero the three passes are the plain
  product, the accumulator over the two key tiles is the sum over all 4096 keys split in halves, and the kernel's result is
  the reference's, index by index.

  The input array reaches the kernel through two read-only windows (query tile and key tile); its ownership is dealt in
  halves to the two windows at the region's entry. Both argument arrays are only ever read, which is the frame; the
  word-level program and its idealization share the whole frame argument, each over its own named payloads. The six
  recorded rewrites of the idealization are each "widening after narrowing is the identity on the extended reals".
-/
import proofs.«171016_j54803782697259_2_alg».proof.Defs
import proofs.«171016_j54803782697259_2_alg».proof.Proof.Gen.Kernel
import proofs.«171016_j54803782697259_2_alg».proof.Proof.Gen.Kernel.Skeleton
import proofs.«171016_j54803782697259_2_alg».proof.Proof.Gen.Kernel.Launch
import proofs.«171016_j54803782697259_2_alg».proof.Proof.Gen.Kernel.Points
import proofs.«171016_j54803782697259_2_alg».proof.Proof.Gen.KernelIdeal
import proofs.«171016_j54803782697259_2_alg».proof.Proof.Gen.KernelIdeal.Skeleton
import proofs.«171016_j54803782697259_2_alg».proof.Proof.Gen.KernelIdeal.Launch
import proofs.«171016_j54803782697259_2_alg».proof.Proof.Gen.KernelIdeal.Points
import proofs.«171016_j54803782697259_2_alg».proof.Proof.Gen.ReferenceIdeal
import proofs.«171016_j54803782697259_2_alg».proof.Proof.Gen.Pre_finite_inputs
import proofs.«171016_j54803782697259_2_alg».proof.Proof.Gen.ReferenceIdeal.Run
import proofs.«171016_j54803782697259_2_alg».proof.Proof.Gen.ReferenceIdeal.Read
import proofs.«171016_j54803782697259_2_alg».proof.Proof.FrameBody
import proofs.«171016_j54803782697259_2_alg».proof.Proof.KFrameBody
import proofs.«171016_j54803782697259_2_alg».proof.Proof.FrameLaunch
import proofs.«171016_j54803782697259_2_alg».proof.Proof.KFrameLaunch
import proofs.«171016_j54803782697259_2_alg».proof.Proof.FrameValue
import proofs.«171016_j54803782697259_2_alg».proof.Proof.AttnReference
import proofs.«171016_j54803782697259_2_alg».proof.Proof.AttnFinite
import Idealize.ShloMosaic.Adequacy
import Idealize.ShloMosaic.Init

noncomputable section

namespace Cert.Proof

open Idealize.ShloMosaic Idealize.ShloMosaic.TcCoe Idealize.SL.Sem

/-- The word-level program runs and leaves both argument arrays as they were. -/
theorem frame_kernel : Cert.frame_Kernel := fun m ρ _ =>
  Cert.Kernel.Run.frame_of_body m ρ (fun c => (Cert.Kernel.Run.body_obligation m c).loose)

/-- So does its idealization. -/
theorem frame_kernelIdeal : Cert.frame_KernelIdeal := fun m ρ _ =>
  Cert.KernelIdeal.Run.frame_of_body m ρ (fun c => (Cert.KernelIdeal.Run.body_obligation m c).loose)

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Each recorded rewrite: widening after narrowing is the identity on the extended reals (and the rounding through
    the narrow format on words). -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-- On the extended reals, from real-valued inputs, the kernel's result array and the reference's are both
    sigmoid((x · W) · xᵀ) · x, entry by entry. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ?_)
      (Cert.KernelIdeal.Run.run_of_body m ρ (fun c => (Cert.KernelIdeal.Run.body_obligation m c).loose))
    obtain ⟨hx, hw⟩ := Cert.Attn.real_inputs m hpre c
    exact ⟨(h c 3).trans (Cert.KernelIdeal.RunValue.final3 m c hx hw),
      (h c 0).trans (((Cert.KernelIdeal.Run.dats m 0 c).arrAt_in 0 rfl _).trans (Cert.KernelIdeal.Run.A_eq m c 0)),
      (h c 2).trans (((Cert.KernelIdeal.Run.dats m 0 c).arrAt_in 2 rfl _).trans (Cert.KernelIdeal.Run.A_eq m c 2))⟩
  · refine (θ_run Cert.ReferenceIdeal.defs _ _).mono (fun _ h c => ⟨?_, (h c).2⟩)
      (Cert.ReferenceIdeal.Value.run (F := Ideal) m' ρ')
    rw [(h c).1, (hagree c).1, (hagree c).2]
    exact Cert.Attn.ref_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
